-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64x16 .f32) (main_arg13 : FVec F S16 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x16 .f32 := Host.absf main_arg12
  let main_cst_22 : FVec F S_ .f32 := constant S_ .f32 0x7F800000#32
  let main_v60 : FVec F S64x16 .f32 := broadcastInDim S64x16 ![] bcast_S_S64x16 main_cst_22
  let main_v61 : IVec S64x16 1 := cmpf .olt main_v59 main_v60
  let main_c_23 : IVec S_ 1 := constantI S_ 1 1#1
  let main_v62 : IVec S_ 1 := (fun x v => Host.reduce IntOp.andi x v reducesTo_S64x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg7 : FVec F S256 .f32) (main_arg8 : FVec F S256x128 .f32) (main_arg9 : FVec F S128 .f32) (main_arg10 : FVec F S128x64 .f32) (main_arg11 : FVec F S64 .f32) (main_arg12 : FVec F S64x16 .f32) (main_arg13 : FVec F S16 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S128x64 .f32) (main_arg11 : FVec F S64 .f32) (main_arg12 : FVec F S64x16 .f32) (main_arg13 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S128x64 .f32) (main_arg11 : FVec F S64 .f32) (main_arg12 : FVec F S64x16 .f32) (main_arg13 : FVec F S16 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x256 : Shape := ⟨2, ![1, 256]⟩
abbrev S1x128 : Shape := ⟨2, ![1, 128]⟩
abbrev S1x64 : Shape := ⟨2, ![1, 64]⟩
abbrev S1x16 : Shape := ⟨2, ![1, 16]⟩
abbrev S400x10000 : Shape := ⟨2, ![400, 10000]⟩
abbrev S400x256 : Shape := ⟨2, ![400, 256]⟩
abbrev S1000x10000 : Shape := ⟨2, ![1000, 10000]⟩
abbrev S1000x256 : Shape := ⟨2, ![1000, 256]⟩
abbrev S10000x16 : Shape := ⟨2, ![10000, 16]⟩
abbrev S1000x16 : Shape := ⟨2, ![1000, 16]⟩
abbrev S1000x128 : Shape := ⟨2, ![1000, 128]⟩
abbrev S1000x64 : Shape := ⟨2, ![1000, 64]⟩

abbrev nBuf : Space → Nat
  | .hbm => 31
  | .vmem => 30
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S10000x256, .bf16⟩
  | .hbm, ⟨15, _⟩ => ⟨S256x256, .bf16⟩
  | .hbm, ⟨16, _⟩ => ⟨S256x256, .bf16⟩
  | .hbm, ⟨17, _⟩ => ⟨S256x256, .bf16⟩
  | .hbm, ⟨18, _⟩ => ⟨S256x128, .bf16⟩
  | .hbm, ⟨19, _⟩ => ⟨S128x64, .bf16⟩
  | .hbm, ⟨20, _⟩ => ⟨S64x16, .bf16⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x128, .f32⟩
  | .hbm, ⟨25, _⟩ => ⟨S1x64, .f32⟩
  | .hbm, ⟨26, _⟩ => ⟨S1x16, .f32⟩
  | .hbm, ⟨27, _⟩ => ⟨S10000x256, .bf16⟩
  | .hbm, ⟨28, _⟩ => ⟨S10000x10000, .bf16⟩
  | .hbm, ⟨29, _⟩ => ⟨S10000x256, .bf16⟩
  | .hbm, ⟨30, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S400x256, .bf16⟩
  | .local _ .vmem, ⟨8, _⟩ => ⟨S400x256, .bf16⟩
  | .local _ .vmem, ⟨9, _⟩ => ⟨S400x10000, .bf16⟩
  | .local _ .vmem, ⟨10, _⟩ => ⟨S400x10000, .bf16⟩
  | .local _ .vmem, ⟨11, _⟩ => ⟨S10000x256, .bf16⟩
  | .local _ .vmem, ⟨12, _⟩ => ⟨S1000x10000, .bf16⟩
  | .local _ .vmem, ⟨13, _⟩ => ⟨S1000x10000, .bf16⟩
  | .local _ .vmem, ⟨14, _⟩ => ⟨S10000x256, .bf16⟩
  | .local _ .vmem, ⟨15, _⟩ => ⟨S256x256, .bf16⟩
  | .local _ .vmem, ⟨16, _⟩ => ⟨S1x256, .f32⟩
  | .local _ .vmem, ⟨17, _⟩ => ⟨S1000x256, .bf16⟩
  | .local _ .vmem, ⟨18, _⟩ => ⟨S1000x256, .bf16⟩
  | .local _ .vmem, ⟨19, _⟩ => ⟨S1000x10000, .bf16⟩
  | .local _ .vmem, ⟨20, _⟩ => ⟨S1000x10000, .bf16⟩
  | .local _ .vmem, ⟨21, _⟩ => ⟨S10000x256, .bf16⟩
  | .local _ .vmem, ⟨22, _⟩ => ⟨S256x128, .bf16⟩
  | .local _ .vmem, ⟨23, _⟩ => ⟨S1x128, .f32⟩
  | .local _ .vmem, ⟨24, _⟩ => ⟨S128x64, .bf16⟩
  | .local _ .vmem, ⟨25, _⟩ => ⟨S1x64, .f32⟩
  | .local _ .vmem, ⟨26, _⟩ => ⟨S64x16, .bf16⟩
  | .local _ .vmem, ⟨27, _⟩ => ⟨S1x16, .f32⟩
  | .local _ .vmem, ⟨28, _⟩ => ⟨S1000x16, .f32⟩
  | .local _ .vmem, ⟨29, _⟩ => ⟨S1000x16, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x10000 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x16 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1000x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  shapeCasts_S256_S1x256 : S256.ShapeCasts S1x256
  shapeCasts_S128_S1x128 : S128.ShapeCasts S1x128
  shapeCasts_S64_S1x64 : S64.ShapeCasts S1x64
  shapeCasts_S16_S1x16 : S16.ShapeCasts S1x16
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  broadcasts_S1x256_S400x256 : S1x256.Broadcasts S400x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S1000x10000_S10000x256_S1000x256_1_0_0_1_n_n_wf : DotDims.WF S1000x10000 S10000x256 S1000x256 [1] [0] [0] [1] [] []
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  dot_S1000x128_S128x64_S1000x64_1_0_0_1_n_n_wf : DotDims.WF S1000x128 S128x64 S1000x64 [1] [0] [0] [1] [] []
  dot_S1000x64_S64x16_S1000x16_1_0_0_1_n_n_wf : DotDims.WF S1000x64 S64x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .bf16 = 32 ∨ (Rect.block (s := S10000x256) S400x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x10000.size a ≤ S10000x10000.size a
  hwx0_7 : ∀ i : grid0.Coords, EltTy.bits .bf16 = 32 ∨ (Rect.block (s := S10000x10000) S400x10000.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S10000x256.size a
  hwx1_4 : ∀ i : grid1.Coords, EltTy.bits .bf16 = 32 ∨ (Rect.block (s := S10000x256) S1000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .bf16 = 32 ∨ (Rect.block (s := S128x64) S128x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x16.size a ≤ S64x16.size a
  hwx2_6 : ∀ i : grid2.Coords, EltTy.bits .bf16 = 32 ∨ (Rect.block (s := S64x16) S64x16.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x16.size a ≤ S10000x16.size a
  hwx2_8 : ∀ i : grid2.Coords, EltTy.bits .f32 = 32 ∨ (Rect.block (s := S10000x16) S1000x16.size (cc2_transform_8 i) (hinb2_8 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x16_S1000x16_1_0_0_1_n_n : DotDims S1000x64 S64x16 S1000x16 where
  lhsContracting := [1]
  rhsContracting := [0]
  lhsNonContracting := [0]
  rhsNonContracting := [1]
  lhsBatch := []
  rhsBatch := []
  wf := dot_S1000x64_S64x16_S1000x16_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S400x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S400x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S64x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15) S1000x16.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x256 : Shape := ⟨2, ![1, 256]⟩
abbrev S_ : Shape := ⟨0, ![]⟩
abbrev S10000x128 : Shape := ⟨2, ![10000, 128]⟩
abbrev S1x128 : Shape := ⟨2, ![1, 128]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩

abbrev nBuf : Space → Nat
  | .hbm => 56
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S1x256, .f32⟩
  | .hbm, ⟨24, _⟩ => ⟨S10000x256, .f32⟩
  | .hbm, ⟨25, _⟩ => ⟨S10000x256, .f32⟩
  | .hbm, ⟨26, _⟩ => ⟨S10000x256, .f32⟩
  | .hbm, ⟨27, _⟩ => ⟨S_, .f32⟩
  | .hbm, ⟨28, _⟩ => ⟨S10000x256, .f32⟩
  | .hbm, ⟨29, _⟩ => ⟨S10000x256, .f32⟩
  | .hbm, ⟨30, _⟩ => ⟨S10000x256, .f32⟩
  | .hbm, ⟨31, _⟩ => ⟨S1x256, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S_, .f32⟩
  | .hbm, ⟨36, _⟩ => ⟨S10000x256, .f32⟩
  | .hbm, ⟨37, _⟩ => ⟨S10000x256, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x64, .f32⟩
  | .hbm, ⟨46, _⟩ => ⟨S1x64, .f32⟩
  | .hbm, ⟨47, _⟩ => ⟨S10000x64, .f32⟩
  | .hbm, ⟨48, _⟩ => ⟨S10000x64, .f32⟩
  | .hbm, ⟨49, _⟩ => ⟨S_, .f32⟩
  | .hbm, ⟨50, _⟩ => ⟨S10000x64, .f32⟩
  | .hbm, ⟨51, _⟩ => ⟨S10000x64, .f32⟩
  | .hbm, ⟨52, _⟩ => ⟨S10000x16, .f32⟩
  | .hbm, ⟨53, _⟩ => ⟨S1x16, .f32⟩
  | .hbm, ⟨54, _⟩ => ⟨S10000x16, .f32⟩
  | .hbm, ⟨55, _⟩ => ⟨S10000x16, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call3_cst : Ref sig .tc := ⟨.hbm, 42, rfl⟩
abbrev main_call3_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call4_cst : Ref sig .tc := ⟨.hbm, 49, rfl⟩
abbrev main_call4_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []
  dot_S10000x64_S64x16_S10000x16_1_0_0_1_n_n_wf : DotDims.WF S10000x64 S64x16 S10000x16 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

class Facts : Prop extends Facts₀ where

variable [Facts]
-- ==== Proof.Frame0CondK.lean ====
/-
  The first pallas_call's body has one conditional, on the grid coordinate: it is taken at the grid's first point and
  at no other.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional, from the grid coordinate. -/
abbrev cond0_0 (i : grid0.Coords) : Prop := (Scalar.cmpi .ne (Scalar.extui (Scalar.cmpi .eq (BitVec.ofNat 32 (i 0).val) 0#32)) 0#32) = 1#1
/-- It holds at the grid's first point and at no other — decided over the grid. -/
theorem hcond0_0 : ∀ t : Fin cfg0.N, cond0_0 (grid0.coords t) ↔ t.val = 0 :=
  (by decide +kernel : ∀ t : Fin grid0.N, cond0_0 (grid0.coords t) ↔ t.val = 0)

end Cert.Kernel.Gen

end
-- ==== Proof.Frame0RunAK.lean ====
/-
  The first pallas_call's body, run whole on any staging memrefs, AT THE GRID'S FIRST POINT: it fills the scratch with
  the first layer's linear part X W1 + b1 (one whole-buffer store), stores the block of the adjacency matrix rounded
  to the narrower format into one output's buffer, and relu(block · scratch) · W2 + b2 into the other's. The pieces each
  buffer ends with are what the run finds.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import proofs.«110443_g37520834297963_cont_8to1_b_1472_13_alg».proof.Proof.Frame0CondK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE FIRST POINT. What the body's stores leave in each output's staging memref and in the scratch, as pieces (last
    first), with the proof that on whole memrefs — the inputs' at their contents, the outputs' and the scratch at
    anything — the body runs to the continuation holding the inputs' as they were and each of the three with its
    pieces written. -/
noncomputable def kernelRun0_A (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i)
    (x0 : Vec F S400x10000 .f32) (x1 : Vec F S10000x256 .bf16) (x2 : Vec F S256x256 .bf16) (x3 : Vec F S1x256 .f32) (x4 : Vec F S256x256 .bf16) (x5 : Vec F S1x256 .f32) :
    Σ' (L6 : List (View.Piece (Elt F) S400x256 .bf16)) (L7 : List (View.Piece (Elt F) S400x10000 .bf16)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS

end Cert.Kernel.Gen

end
-- ==== Proof.Frame0RunBK.lean ====
/-
  The first pallas_call's body, run whole on any staging memrefs, AT EVERY POINT AFTER THE FIRST: the scratch is only
  read, and handed back as it was found; the two outputs' buffers are stored as at the first point. The pieces each
  buffer ends with are what the run finds.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import proofs.«110443_g37520834297963_cont_8to1_b_1472_13_alg».proof.Proof.Frame0CondK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- EVERY LATER POINT. The same with the scratch found at contents xs and handed back at them: the body stores into the
    two outputs only. -/
noncomputable def kernelRun0_B (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i)
    (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) :
    Σ' (L6 : List (View.Piece (Elt F) S400x256 .bf16)), { L7 : List (View.Piece (Elt F) S400x10000 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ owns (c : Thread nD τ) arg9 fullShare xs) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9) K } := by
  refine ⟨?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; isplitr; · ipureintro; exact harg9.read_unread _
    iexact HS

end Cert.Kernel.Gen

end
-- ==== Proof.Frame0K.lean ====
/-
  The first pallas_call, one grid point at a time. The scratch the body fills at the grid's first point and reads at
  every later one is carried by the region's invariant: before the first point it holds anything; after any point it
  holds what the first point stored — the first layer's linear part of the WHOLE input arrays, since the windows that
  feed it are whole-array blocks that never move. Each output's staging buffer after the body is what that point's case
  leaves: at the first point computed from the scratch just stored, at later points from the scratch as carried.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import proofs.«110443_g37520834297963_cont_8to1_b_1472_13_alg».proof.Proof.Frame0RunAK
import proofs.«110443_g37520834297963_cont_8to1_b_1472_13_alg».proof.Proof.Frame0RunBK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point t, spelled as the pipeline passes it, and its wholeness. -/
abbrev ms0_0 (t : Fin cfg0.N) : Memref sig .tc .vmem S400x10000 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S10000x256 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S400x256 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S400x10000 .bf16 := win0_7.stage (cfg0.slots t 7)
theorem hs0_7 (t : Fin cfg0.N) : (ms0_7 t).IsWhole := hstage0_7 ((cfg0.slots t 7).cast nbuf0_7)
/-- The scratch, as a memref. -/
abbrev scM0 : Memref sig .tc .vmem S10000x256 .bf16 := Memref.whole cc0_scratch0

/-- The grid's first point. -/
def t00 : Fin cfg0.N := ⟨0, by rw [show cfg0.N = 25 from N_0]; decide⟩

/-! ## What each case leaves, and that its stores cover the buffer -/

theorem cover0_A_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) (y : S400x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S400x256.size (by sl_kernel_rfl) y
theorem cover0_A_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) (y : S400x10000.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S400x10000.size (by sl_kernel_rfl) y
theorem scover0_A (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) (y : S10000x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S10000x256.size (by sl_kernel_rfl) y
theorem cover0_B_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) (y : S400x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs).1 S400x256.size (by sl_kernel_rfl) y
theorem cover0_B_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) (y : S400x10000.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs).2.1 S400x10000.size (by sl_kernel_rfl) y

/-- What the first point leaves in the two outputs' buffers and in the scratch: its pieces, read as one array. -/
def out0_A_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) : Vec F S400x256 .bf16 :=
  View.canon (kernelRun0_A c i arg1 harg1 arg2 harg2 arg3 harg3 arg4 harg4 arg5 harg5 arg6 harg6 arg7 harg7 arg8 harg8 arg9 harg9 hc0 x0 x1 x2 x3 x4 x5).1
def out0_A_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) : Vec F S400x10000 .bf16 :=
  View.canon (kernelRun0_A c i arg1 harg1 arg2 harg2 arg3 harg3 arg4 harg4 arg5 harg5 arg6 harg6 arg7 harg7 arg8 harg8 arg9 harg9 hc0 x0 x1 x2 x3 x4 x5).2.1
def sout0_A (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) : Vec F S10000x256 .bf16 :=
  View.canon (kernelRun0_A c i arg1 harg1 arg2 harg2 arg3 harg3 arg4 harg4 arg5 harg5 arg6 harg6 arg7 harg7 arg8 harg8 arg9 harg9 hc0 x0 x1 x2 x3 x4 x5).2.2.1
/-- What a later point leaves in the two outputs' buffers, from the scratch as carried. -/
def out0_B_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) : Vec F S400x256 .bf16 :=
  View.canon (kernelRun0_B c i arg1 harg1 arg2 harg2 arg3 harg3 arg4 harg4 arg5 harg5 arg6 harg6 arg7 harg7 arg8 harg8 arg9 harg9 hc0 x0 x1 x2 x3 x4 x5 xs).1
def out0_B_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) : Vec F S400x10000 .bf16 :=
  View.canon (kernelRun0_B c i arg1 harg1 arg2 harg2 arg3 harg3 arg4 harg4 arg5 harg5 arg6 harg6 arg7 harg7 arg8 harg8 arg9 harg9 hc0 x0 x1 x2 x3 x4 x5 xs).2.1

/-! ## The carried scratch and the outputs, point by point -/

/-- What the scratch holds after any point: what the first point stored. -/
def sc0 (c : Dev nD) : Vec F S10000x256 .bf16 :=
  sout0_A c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) scM0 (Memref.isWhole_whole _) ((hcond0_0 t00).mpr rfl) (iblk0 V c 0 t00) (iblk0 V c 1 t00) (iblk0 V c 2 t00) (iblk0 V c 3 t00) (iblk0 V c 4 t00) (iblk0 V c 5 t00)

/-- What the two outputs' staging buffers hold after the body at point t. -/
def outs0 (c : Dev nD) (t : Fin cfg0.N) : Vec F S400x256 .bf16 × Vec F S400x10000 .bf16 :=
  if h : t.val = 0 then
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t),
     out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t))
  else
    (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c),
     out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c))

theorem outs0_A (c : Dev nD) (t : Fin cfg0.N) (h : t.val = 0) :
    outs0 V c t = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t),
     out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t)) := by
  unfold outs0; exact dif_pos h
theorem outs0_B (c : Dev nD) (t : Fin cfg0.N) (h : ¬t.val = 0) :
    outs0 V c t = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c),
     out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c)) := by
  unfold outs0; exact dif_neg h

/-- The region invariant before position n: before the first point, the scoped buffers no window stages at anything and
    the generator register at some state; afterwards the same with the scratch at what the first point stored. -/
def PhiS (c : Dev nD) : ℕ → sProp 𝕄
  | 0 => Pipeline.ΦA spec0 c
  | _ + 1 => iprop(iprop(owns (c : Thread nD τ) scM0 fullShare (sc0 V c)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop(iprop(owns (c : Thread nD τ) scM0 fullShare (sc0 V c)
      ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (hz : n ≠ 0) :
    PhiS V c n = iprop(iprop(owns (c : Thread nD τ) scM0 fullShare (sc0 V c)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The launch's invariant with the scratch split off as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list (win := spec0) (c := c) [cc0_scratch0] (by decide) (by decide)]
  simp only [Idealize.SL.BI.bigSepL_singleton, scM0, owns_whole]; try rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outs0 V c t).1
    | ⟨7, _⟩ => (outs0 V c t).2
  Φ t := PhiS V c t.val
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outs0 V c t).1 := by dsimp only [dat0]
theorem after0_7 (c : Dev nD) (t : Fin cfg0.N) : (dat0 V c).after 7 t = (outs0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4800000 in
/-- The body at any point. At the first point the invariant hands the body the scratch at anything and takes it back at
    what the body stored; at a later point it hands it at what the first point stored and takes it back unchanged. The
    inputs' memrefs hold their blocks; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) from rfl, PhiS_succ]
  rw [after0_0, after0_1, after0_2, after0_3, after0_4, after0_5, after0_6, after0_7]
  by_cases h0 : t.val = 0
  · obtain rfl : t = t00 := Fin.ext h0
    rw [outs0_A V c t00 h0]
    unfold out0_A_6 out0_A_7 sc0 sout0_A; (try dsimp only)
    rw [PhiS_castSucc V c t00, PhiS_zero V c _ h0, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t00) _ _ _ _ _ _ _ _ _ _ _ _ _ _ _ _ _ _ ((hcond0_0 t00).mpr h0) (iblk0 V c 0 t00) (iblk0 V c 1 t00) (iblk0 V c 2 t00) (iblk0 V c 3 t00) (iblk0 V c 4 t00) (iblk0 V c 5 t00)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS Hrest Hg]
    · isplitl [HS Hrest]
      · isplitl [HS]
        · unfold owns; iexists _; isplitr
          swap; · iexact HS
          ipureintro; exact View.read_writes_eq_canon _ _ _ (scover0_A c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_A_6 c _ _ _ _ _ _ _ _ _ _ _ _ _ _ _ _ _ _ _ _ _ _ _ _ _ _)
    unfold owns; iexists _; isplitr
    swap; · iexact H7
    ipureintro; exact View.read_writes_eq_canon _ _ _ (cover0_A_7 c _ _ _ _ _ _ _ _ _ _ _ _ _ _ _ _ _ _ _ _ _ _ _ _ _ _)
  · rw [outs0_B V c t h0]
    unfold out0_B_6 out0_B_7; (try dsimp only)
    rw [PhiS_castSucc V c t, PhiS_pos V c _ h0]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun hc => h0 ((hcond0_0 t).mp hc)) (iblk0 V c 0 t) (iblk0 V c 1 t) (iblk0 V c 2 t) (iblk0 V c 3 t) (iblk0 V c 4 t) (iblk0 V c 5 t) (sc0 V c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_B_6 c _ _ _ _ _ _ _ _ _ _ _ _ _ _ _ _ _ _ _ _ _ _ _ _ _ _ _)
    unfold owns; iexists _; isplitr
    swap; · iexact H7
    ipureintro; exact View.read_writes_eq_canon _ _ _ (cover0_B_7 c _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, Hrest⟩, Hg⟩
  isplitl [HS Hrest]
  · isplitl [HS]
    · iexists _; iexact HS
    iexact Hrest
  iexact Hg

end Region0

end Cert.Kernel.Gen

end
-- ==== Proof.Frame1K.lean ====
/-
  The second pallas_call, one grid point at a time: what each window's staging buffer holds when the body is
  called, what the body leaves in the output's buffer, and the body's triple. Row block t of the adjacency copy and
  the whole of the previous layer's features go in; the body stores relu(block · features) · W + b, one whole
  block, into the output's buffer. Everything is stated at the contents V the region is entered with, for any
  float instance.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each a whole buffer. -/
abbrev r1_0 : Rect S1000x10000 := Rect.unit (s := S1000x10000) ![0, 0] S1000x10000.size inb_S1000x10000_S1000x10000_0_0
abbrev r1_1 : Rect S10000x256 := Rect.unit (s := S10000x256) ![0, 0] S10000x256.size inb_S10000x256_S10000x256_0_0
abbrev r1_2 : Rect S256x256 := Rect.unit (s := S256x256) ![0, 0] S256x256.size inb_S256x256_S256x256_0_0
abbrev r1_3 : Rect S1x256 := Rect.unit (s := S1x256) ![0, 0] S1x256.size inb_S1x256_S1x256_0_0
abbrev r1_4 : Rect S1000x256 := Rect.unit (s := S1000x256) ![0, 0] S1000x256.size inb_S1000x256_S1000x256_0_0

/-- The output's staging buffer after the body, from the input windows' blocks: its one store as a piece. -/
def out1_4 (x0 : Vec F S1000x10000 .bf16) (x1 : Vec F S10000x256 .bf16) (x2 : Vec F S256x256 .bf16) (x3 : Vec F S1x256 .f32) : Vec F S1000x256 .bf16 :=
  View.canon [⟨r1_4, k1_pay1 (View.ld x0 r1_0) (View.ld x1 r1_1) (View.ld x2 r1_2) (View.ld x3 r1_3)⟩]

/-- The one store is the whole buffer, so it covers it. -/
theorem cover1_4 (p0 : Vec F S1000x256 .bf16) (y : S1000x256.Idx) :
    ∃ pc ∈ ([⟨r1_4, p0⟩] : List (View.Piece (Elt F) S1000x256 .bf16)), y ∈ pc.1.set :=
  View.cover_of_tiled [⟨r1_4, p0⟩] S1000x256.size (by rfl) y

set_option maxHeartbeats 2000000 in
/-- The body on whole staging memrefs, the inputs' at contents x_w and the output's at anything, runs to the
    continuation holding the inputs' as they were and the output's at out1_4 of the inputs'. -/
theorem sound_kernel1 (c : Dev nD) (E : Set ℕ) (i : grid1.Coords)
    (arg1 : Memref sig .tc .vmem S1000x10000 .bf16) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S1000x256 .bf16) (harg5 : arg5.IsWhole)
    (x0 : Vec F S1000x10000 .bf16) (x1 : Vec F S10000x256 .bf16) (x2 : Vec F S256x256 .bf16) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__l2_kernel i arg1 harg1 arg2 harg2 arg3 harg3 arg4 harg4 arg5 harg5) K := by
  simp only [cc1__l2_kernel_eq_skeleton]; unfold cc1__l2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The proof data of this pipeline on core c: the arrays as the region finds them; after the body at point t each
    input's buffer at its block and the output's at out1_4 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.Frame2K.lean ====
/-
  The third pallas_call, one grid point at a time: what each window's staging buffer holds when the body is
  called, what the body leaves in the output's buffer, and the body's triple. Row block t of the adjacency copy, the
  whole of the previous layer's features and the head's three weight matrices and bias rows go in; the body stores
  the head applied to relu(block · features), one whole block of the result, into the output's buffer. Everything
  is stated at the contents V the region is entered with, for any float instance.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each a whole buffer. -/
abbrev r2_0 : Rect S1000x10000 := Rect.unit (s := S1000x10000) ![0, 0] S1000x10000.size inb_S1000x10000_S1000x10000_0_0
abbrev r2_1 : Rect S10000x256 := Rect.unit (s := S10000x256) ![0, 0] S10000x256.size inb_S10000x256_S10000x256_0_0
abbrev r2_2 : Rect S256x128 := Rect.unit (s := S256x128) ![0, 0] S256x128.size inb_S256x128_S256x128_0_0
abbrev r2_3 : Rect S1x128 := Rect.unit (s := S1x128) ![0, 0] S1x128.size inb_S1x128_S1x128_0_0
abbrev r2_4 : Rect S128x64 := Rect.unit (s := S128x64) ![0, 0] S128x64.size inb_S128x64_S128x64_0_0
abbrev r2_5 : Rect S1x64 := Rect.unit (s := S1x64) ![0, 0] S1x64.size inb_S1x64_S1x64_0_0
abbrev r2_6 : Rect S64x16 := Rect.unit (s := S64x16) ![0, 0] S64x16.size inb_S64x16_S64x16_0_0
abbrev r2_7 : Rect S1x16 := Rect.unit (s := S1x16) ![0, 0] S1x16.size inb_S1x16_S1x16_0_0
abbrev r2_8 : Rect S1000x16 := Rect.unit (s := S1000x16) ![0, 0] S1000x16.size inb_S1000x16_S1000x16_0_0

/-- The output's staging buffer after the body, from the input windows' blocks: its one store as a piece. -/
def out2_8 (x0 : Vec F S1000x10000 .bf16) (x1 : Vec F S10000x256 .bf16) (x2 : Vec F S256x128 .bf16) (x3 : Vec F S1x128 .f32) (x4 : Vec F S128x64 .bf16) (x5 : Vec F S1x64 .f32) (x6 : Vec F S64x16 .bf16) (x7 : Vec F S1x16 .f32) : Vec F S1000x16 .f32 :=
  View.canon [⟨r2_8, k2_pay1 (View.ld x0 r2_0) (View.ld x1 r2_1) (View.ld x2 r2_2) (View.ld x3 r2_3) (View.ld x4 r2_4) (View.ld x5 r2_5) (View.ld x6 r2_6) (View.ld x7 r2_7)⟩]

/-- The one store is the whole buffer, so it covers it. -/
theorem cover2_8 (p0 : Vec F S1000x16 .f32) (y : S1000x16.Idx) :
    ∃ pc ∈ ([⟨r2_8, p0⟩] : List (View.Piece (Elt F) S1000x16 .f32)), y ∈ pc.1.set :=
  View.cover_of_tiled [⟨r2_8, p0⟩] S1000x16.size (by rfl) y

set_option maxHeartbeats 2000000 in
/-- The body on whole staging memrefs, the inputs' at contents x_w and the output's at anything, runs to the
    continuation holding the inputs' as they were and the output's at out2_8 of the inputs'. -/
theorem sound_kernel2 (c : Dev nD) (E : Set ℕ) (i : grid2.Coords)
    (arg1 : Memref sig .tc .vmem S1000x10000 .bf16) (harg1 : arg1.IsWhole) (arg2 : Memref sig .tc .vmem S10000x256 .bf16) (harg2 : arg2.IsWhole) (arg3 : Memref sig .tc .vmem S256x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S64x16 .bf16) (harg7 : arg7.IsWhole) (arg8 : Memref sig .tc .vmem S1x16 .f32) (harg8 : arg8.IsWhole) (arg9 : Memref sig .tc .vmem S1000x16 .f32) (harg9 : arg9.IsWhole)
    (x0 : Vec F S1000x10000 .bf16) (x1 : Vec F S10000x256 .bf16) (x2 : Vec F S256x128 .bf16) (x3 : Vec F S1x128 .f32) (x4 : Vec F S128x64 .bf16) (x5 : Vec F S1x64 .f32) (x6 : Vec F S64x16 .bf16) (x7 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9) K := by
  simp only [cc2__head_kernel_eq_skeleton]; unfold cc2__head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-- The proof data of this pipeline on core c: the arrays as the region finds them; after the body at point t each
    input's buffer at its block and the output's at out2_8 of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.RunK.lean ====
/-
  The whole program as a run: the host operations before the first pallas_call, then the three pallas_calls one after
  the other, each entered from the buffers' contents the one before left. The contents at each boundary are named
  (the launch memory, then the host operations applied, then each pipeline's arrays at what its write-backs leave),
  each pallas_call is a region record over "every unscoped buffer at the boundary's contents, the generator register
  at some state, nothing owed", and the launch theorem gives: every weakly fair execution terminates, nothing faults,
  and every unscoped buffer ends at the last boundary's contents.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import proofs.«110443_g37520834297963_cont_8to1_b_1472_13_alg».proof.Proof.Gen.Kernel.Regions
import proofs.«110443_g37520834297963_cont_8to1_b_1472_13_alg».proof.Proof.Frame0K
import proofs.«110443_g37520834297963_cont_8to1_b_1472_13_alg».proof.Proof.Frame1K
import proofs.«110443_g37520834297963_cont_8to1_b_1472_13_alg».proof.Proof.Frame2K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers after the host operations, read at the TensorCore's references: what the first pallas_call is entered
    from. -/
abbrev T1 : (c : Dev nD) → (b : Ref sig .tc) → Buf (Elt F) ((c : Thread nD τ).loc b) := fun c b => V1 m c b

/-- The unscoped buffers when the first pallas_call is left: its arrays at what the pipeline leaves (the inputs
    as entered, each output's write-backs folded), every other buffer as entered. -/
def U2 (c : Dev nD) : Valuation τ sig (Elt F) :=
  Pipeline.withArrays spec0 c (V1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = V1 m c (Proc.devRef .tc b) := by
  unfold U2; exact Pipeline.withArrays_of_ne spec0 c _ _ b hb
/-- The same read at the TensorCore's references. -/
abbrev T2 : (c : Dev nD) → (b : Ref sig .tc) → Buf (Elt F) ((c : Thread nD τ).loc b) := fun c b => U2 m c b
theorem hF0 (c : Dev nD) (w : Fin cfg0.W) : (dat0 (T1 m) c).arrAt w cfg0.N = T2 m c (Pipeline.arrRef spec0 w) :=
  (U2_arr m c w).symm
theorem hrest0 (c : Dev nD) : ∀ b, b ∉ Finset.univ.image (Pipeline.arrRef spec0) → T2 m c b = T1 m c b :=
  fun b hb => U2_of_ne m c b fun w e => hb (Finset.mem_image.mpr ⟨w, Finset.mem_univ _, e⟩)

/-- The unscoped buffers when the second pallas_call is left: its arrays at what the pipeline leaves (the inputs
    as entered, each output's write-backs folded), every other buffer as entered. -/
def U3 (c : Dev nD) : Valuation τ sig (Elt F) :=
  Pipeline.withArrays spec1 c (U2 m c) fun w => (dat1 (T2 m) c).arrAt w cfg1.N
theorem U3_arr (c : Dev nD) (w : Fin cfg1.W) :
    U3 m c (Proc.devRef .tc (Pipeline.arrRef spec1 w)) = (dat1 (T2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
/-- The same read at the TensorCore's references. -/
abbrev T3 : (c : Dev nD) → (b : Ref sig .tc) → Buf (Elt F) ((c : Thread nD τ).loc b) := fun c b => U3 m c b
theorem hF1 (c : Dev nD) (w : Fin cfg1.W) : (dat1 (T2 m) c).arrAt w cfg1.N = T3 m c (Pipeline.arrRef spec1 w) :=
  (U3_arr m c w).symm
theorem hrest1 (c : Dev nD) : ∀ b, b ∉ Finset.univ.image (Pipeline.arrRef spec1) → T3 m c b = T2 m c b :=
  fun b hb => U3_of_ne m c b fun w e => hb (Finset.mem_image.mpr ⟨w, Finset.mem_univ _, e⟩)

/-- The unscoped buffers when the third pallas_call is left: its arrays at what the pipeline leaves (the inputs
    as entered, each output's write-backs folded), every other buffer as entered. -/
def U4 (c : Dev nD) : Valuation τ sig (Elt F) :=
  Pipeline.withArrays spec2 c (U3 m c) fun w => (dat2 (T3 m) c).arrAt w cfg2.N
theorem U4_arr (c : Dev nD) (w : Fin cfg2.W) :
    U4 m c (Proc.devRef .tc (Pipeline.arrRef spec2 w)) = (dat2 (T3 m) c).arrAt w cfg2.N := by
  unfold U4; exact Pipeline.withArrays_arr spec2 launch2.win.arr_inj c _ _ w
theorem U4_of_ne (c : Dev nD) (b : Ref sig .tc) (hb : ∀ w, Pipeline.arrRef spec2 w ≠ b) :
    U4 m c (Proc.devRef .tc b) = U3 m c (Proc.devRef .tc b) := by
  unfold U4; exact Pipeline.withArrays_of_ne spec2 c _ _ b hb
/-- The same read at the TensorCore's references. -/
abbrev T4 : (c : Dev nD) → (b : Ref sig .tc) → Buf (Elt F) ((c : Thread nD τ).loc b) := fun c b => U4 m c b
theorem hF2 (c : Dev nD) (w : Fin cfg2.W) : (dat2 (T3 m) c).arrAt w cfg2.N = T4 m c (Pipeline.arrRef spec2 w) :=
  (U4_arr m c w).symm
theorem hrest2 (c : Dev nD) : ∀ b, b ∉ Finset.univ.image (Pipeline.arrRef spec2) → T4 m c b = T3 m c b :=
  fun b hb => U4_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (U4 m c) ∗ ∃ r, prngReg c r)

/-! ## The pallas_calls as segments -/

-- a library lemma stated over the pinned configuration unifies with the printed one only when unification may unfold
-- plain definitions in a metavariable's type
set_option backward.isDefEq.respectTransparency.types false in
/-- The first pallas_call over the thread state: its arrays split out of the unscoped buffers and put back at
    the exit contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (T1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call over the thread state: its arrays split out of the unscoped buffers and put back at
    the exit contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third pallas_call over the thread state: its arrays split out of the unscoped buffers and put back at
    the exit contents; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm (pdats m) () defs₀ 𝒱₀ L lv) :=
  [ .host (hseg hostOps0 hostOps0_sub hostOps0_fresh (V0 m)),
    .region (reg0 m),
    .region (reg1 m),
    .region (reg2 m) ]
theorem main_run (c : Dev nD) : main (F := F) c = Pipeline.Seg.run (segsH m) := (main_chain c).trans (by chain_rfl)

variable (ρ : Dev nD → PrngReg)

set_option backward.isDefEq.respectTransparency.types false in
/-- THE RUN, at any float instance: from any memory with zero counters every weakly fair execution of the program on
    the TensorCores terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c => h c)

end Cert.Kernel.Gen

end
-- ==== Proof.ArgsK.lean ====
/-
  No step of the program writes an argument array: the host operations write their own result buffers, and each
  pallas_call writes back only its output windows' arrays. So every argument is read back, boundary by boundary, to the
  launch memory — the adjacency matrix through the first pallas_call's input window, which hands an input array back as
  it found it — and the run gives the frame claim: every execution terminates, nothing faults, the arguments end
  unchanged.
-/
import proofs.«110443_g37520834297963_cont_8to1_b_1472_13_alg».proof.Proof.Gen.Kernel.Launch
import proofs.«110443_g37520834297963_cont_8to1_b_1472_13_alg».proof.Proof.Gen.Kernel.Skeleton
import proofs.«110443_g37520834297963_cont_8to1_b_1472_13_alg».proof.Proof.Gen.Kernel.Points
import proofs.«110443_g37520834297963_cont_8to1_b_1472_13_alg».proof.Proof.RunK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that is no window's array of any pallas_call and that no host operation writes ends as launched. -/
theorem U4_untouched (c : Dev nD) (b : Ref sig .tc) (h2 : ∀ w, Pipeline.arrRef spec2 w ≠ b) (h1 : ∀ w, Pipeline.arrRef spec1 w ≠ b)
    (h0 : ∀ w, Pipeline.arrRef spec0 w ≠ b) (hW : b ∉ hostOps0_W) :
    U4 m c (Proc.devRef .tc b) = m ((c : Thread nD τ).loc b) :=
  (U4_of_ne m c b h2).trans <| (U3_of_ne m c b h1).trans <| (U2_of_ne m c b h0).trans <| (V1_of m c b hW).trans rfl

theorem U4_main_arg0 (c : Dev nD) : U4 m c (Proc.devRef .tc main_arg0) = m ((c : Thread nD τ).loc main_arg0) :=
  U4_untouched m c main_arg0 (by decide) (by decide) (by decide) (by decide)
theorem U4_main_arg2 (c : Dev nD) : U4 m c (Proc.devRef .tc main_arg2) = m ((c : Thread nD τ).loc main_arg2) :=
  U4_untouched m c main_arg2 (by decide) (by decide) (by decide) (by decide)
theorem U4_main_arg3 (c : Dev nD) : U4 m c (Proc.devRef .tc main_arg3) = m ((c : Thread nD τ).loc main_arg3) :=
  U4_untouched m c main_arg3 (by decide) (by decide) (by decide) (by decide)
theorem U4_main_arg4 (c : Dev nD) : U4 m c (Proc.devRef .tc main_arg4) = m ((c : Thread nD τ).loc main_arg4) :=
  U4_untouched m c main_arg4 (by decide) (by decide) (by decide) (by decide)
theorem U4_main_arg5 (c : Dev nD) : U4 m c (Proc.devRef .tc main_arg5) = m ((c : Thread nD τ).loc main_arg5) :=
  U4_untouched m c main_arg5 (by decide) (by decide) (by decide) (by decide)
theorem U4_main_arg6 (c : Dev nD) : U4 m c (Proc.devRef .tc main_arg6) = m ((c : Thread nD τ).loc main_arg6) :=
  U4_untouched m c main_arg6 (by decide) (by decide) (by decide) (by decide)
theorem U4_main_arg7 (c : Dev nD) : U4 m c (Proc.devRef .tc main_arg7) = m ((c : Thread nD τ).loc main_arg7) :=
  U4_untouched m c main_arg7 (by decide) (by decide) (by decide) (by decide)
theorem U4_main_arg8 (c : Dev nD) : U4 m c (Proc.devRef .tc main_arg8) = m ((c : Thread nD τ).loc main_arg8) :=
  U4_untouched m c main_arg8 (by decide) (by decide) (by decide) (by decide)
theorem U4_main_arg9 (c : Dev nD) : U4 m c (Proc.devRef .tc main_arg9) = m ((c : Thread nD τ).loc main_arg9) :=
  U4_untouched m c main_arg9 (by decide) (by decide) (by decide) (by decide)
theorem U4_main_arg10 (c : Dev nD) : U4 m c (Proc.devRef .tc main_arg10) = m ((c : Thread nD τ).loc main_arg10) :=
  U4_untouched m c main_arg10 (by decide) (by decide) (by decide) (by decide)
theorem U4_main_arg11 (c : Dev nD) : U4 m c (Proc.devRef .tc main_arg11) = m ((c : Thread nD τ).loc main_arg11) :=
  U4_untouched m c main_arg11 (by decide) (by decide) (by decide) (by decide)
theorem U4_main_arg12 (c : Dev nD) : U4 m c (Proc.devRef .tc main_arg12) = m ((c : Thread nD τ).loc main_arg12) :=
  U4_untouched m c main_arg12 (by decide) (by decide) (by decide) (by decide)
theorem U4_main_arg13 (c : Dev nD) : U4 m c (Proc.devRef .tc main_arg13) = m ((c : Thread nD τ).loc main_arg13) :=
  U4_untouched m c main_arg13 (by decide) (by decide) (by decide) (by decide)
/-- The adjacency matrix is the first pallas_call's input window 0: the pipeline hands it back as entered. -/
theorem U4_main_arg1 (c : Dev nD) : U4 m c (Proc.devRef .tc main_arg1) = m ((c : Thread nD τ).loc main_arg1) :=
  (U4_of_ne m c main_arg1 (by decide)).trans <| (U3_of_ne m c main_arg1 (by decide)).trans <| (U2_arr m c 0).trans <|
    ((dat0 (T1 m) c).arrAt_in 0 rfl _).trans <| (A_eq0 (T1 m) c 0).trans <| (V1_of m c main_arg1 (by decide)).trans rfl

variable (ρ : Dev nD → PrngReg)

/-- THE FRAME, at any float instance: every weakly fair execution terminates, nothing faulting, and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (U4_main_arg0 m c),
     (h c _ (mem_uc main_arg1 (by decide))).trans (U4_main_arg1 m c),
     (h c _ (mem_uc main_arg2 (by decide))).trans (U4_main_arg2 m c),
     (h c _ (mem_uc main_arg3 (by decide))).trans (U4_main_arg3 m c),
     (h c _ (mem_uc main_arg4 (by decide))).trans (U4_main_arg4 m c),
     (h c _ (mem_uc main_arg5 (by decide))).trans (U4_main_arg5 m c),
     (h c _ (mem_uc main_arg6 (by decide))).trans (U4_main_arg6 m c),
     (h c _ (mem_uc main_arg7 (by decide))).trans (U4_main_arg7 m c),
     (h c _ (mem_uc main_arg8 (by decide))).trans (U4_main_arg8 m c),
     (h c _ (mem_uc main_arg9 (by decide))).trans (U4_main_arg9 m c),
     (h c _ (mem_uc main_arg10 (by decide))).trans (U4_main_arg10 m c),
     (h c _ (mem_uc main_arg11 (by decide))).trans (U4_main_arg11 m c),
     (h c _ (mem_uc main_arg12 (by decide))).trans (U4_main_arg12 m c),
     (h c _ (mem_uc main_arg13 (by decide))).trans (U4_main_arg13 m c)⟩) (run_all m ρ)

end Cert.Kernel.Gen

end
-- ==== Proof.Frame0CondI.lean ====
/-
  The first pallas_call's body has one conditional, on the grid coordinate: it is taken at the grid's first point and
  at no other.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional, from the grid coordinate. -/
abbrev cond0_0 (i : grid0.Coords) : Prop := (Scalar.cmpi .ne (Scalar.extui (Scalar.cmpi .eq (BitVec.ofNat 32 (i 0).val) 0#32)) 0#32) = 1#1
/-- It holds at the grid's first point and at no other — decided over the grid. -/
theorem hcond0_0 : ∀ t : Fin cfg0.N, cond0_0 (grid0.coords t) ↔ t.val = 0 :=
  (by decide +kernel : ∀ t : Fin grid0.N, cond0_0 (grid0.coords t) ↔ t.val = 0)

end Cert.KernelIdeal.Gen

end
-- ==== Proof.Frame0RunAI.lean ====
/-
  The first pallas_call's body, run whole on any staging memrefs, AT THE GRID'S FIRST POINT: it fills the scratch with
  the first layer's linear part X W1 + b1 (one whole-buffer store), stores the block of the adjacency matrix rounded
  to the narrower format into one output's buffer, and relu(block · scratch) · W2 + b2 into the other's. The pieces each
  buffer ends with are what the run finds.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import proofs.«110443_g37520834297963_cont_8to1_b_1472_13_alg».proof.Proof.Frame0CondI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE FIRST POINT. What the body's stores leave in each output's staging memref and in the scratch, as pieces (last
    first), with the proof that on whole memrefs — the inputs' at their contents, the outputs' and the scratch at
    anything — the body runs to the continuation holding the inputs' as they were and each of the three with its
    pieces written. -/
noncomputable def kernelRun0_A (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i)
    (x0 : Vec F S400x10000 .f32) (x1 : Vec F S10000x256 .bf16) (x2 : Vec F S256x256 .bf16) (x3 : Vec F S1x256 .f32) (x4 : Vec F S256x256 .bf16) (x5 : Vec F S1x256 .f32) :
    Σ' (L6 : List (View.Piece (Elt F) S400x256 .bf16)) (L7 : List (View.Piece (Elt F) S400x10000 .bf16)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9) K } := by
  refine ⟨?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS

end Cert.KernelIdeal.Gen

end
-- ==== Proof.Frame0RunBI.lean ====
/-
  The first pallas_call's body, run whole on any staging memrefs, AT EVERY POINT AFTER THE FIRST: the scratch is only
  read, and handed back as it was found; the two outputs' buffers are stored as at the first point. The pieces each
  buffer ends with are what the run finds.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import proofs.«110443_g37520834297963_cont_8to1_b_1472_13_alg».proof.Proof.Frame0CondI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- EVERY LATER POINT. The same with the scratch found at contents xs and handed back at them: the body stores into the
    two outputs only. -/
noncomputable def kernelRun0_B (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i)
    (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) :
    Σ' (L6 : List (View.Piece (Elt F) S400x256 .bf16)), { L7 : List (View.Piece (Elt F) S400x10000 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ owns (c : Thread nD τ) arg9 fullShare xs) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9) K } := by
  refine ⟨?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; isplitr; · ipureintro; exact harg9.read_unread _
    iexact HS

end Cert.KernelIdeal.Gen

end
-- ==== Proof.Frame0I.lean ====
/-
  The first pallas_call, one grid point at a time. The scratch the body fills at the grid's first point and reads at
  every later one is carried by the region's invariant: before the first point it holds anything; after any point it
  holds what the first point stored — the first layer's linear part of the WHOLE input arrays, since the windows that
  feed it are whole-array blocks that never move. Each output's staging buffer after the body is what that point's case
  leaves: at the first point computed from the scratch just stored, at later points from the scratch as carried.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import proofs.«110443_g37520834297963_cont_8to1_b_1472_13_alg».proof.Proof.Frame0RunAI
import proofs.«110443_g37520834297963_cont_8to1_b_1472_13_alg».proof.Proof.Frame0RunBI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point t, spelled as the pipeline passes it, and its wholeness. -/
abbrev ms0_0 (t : Fin cfg0.N) : Memref sig .tc .vmem S400x10000 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S10000x256 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S400x256 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S400x10000 .bf16 := win0_7.stage (cfg0.slots t 7)
theorem hs0_7 (t : Fin cfg0.N) : (ms0_7 t).IsWhole := hstage0_7 ((cfg0.slots t 7).cast nbuf0_7)
/-- The scratch, as a memref. -/
abbrev scM0 : Memref sig .tc .vmem S10000x256 .bf16 := Memref.whole cc0_scratch0

/-- The grid's first point. -/
def t00 : Fin cfg0.N := ⟨0, by rw [show cfg0.N = 25 from N_0]; decide⟩

/-! ## What each case leaves, and that its stores cover the buffer -/

theorem cover0_A_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) (y : S400x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S400x256.size (by sl_kernel_rfl) y
theorem cover0_A_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) (y : S400x10000.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S400x10000.size (by sl_kernel_rfl) y
theorem scover0_A (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) (y : S10000x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S10000x256.size (by sl_kernel_rfl) y
theorem cover0_B_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) (y : S400x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs).1 S400x256.size (by sl_kernel_rfl) y
theorem cover0_B_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) (y : S400x10000.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs).2.1 S400x10000.size (by sl_kernel_rfl) y

/-- What the first point leaves in the two outputs' buffers and in the scratch: its pieces, read as one array. -/
def out0_A_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) : Vec F S400x256 .bf16 :=
  View.canon (kernelRun0_A c i arg1 harg1 arg2 harg2 arg3 harg3 arg4 harg4 arg5 harg5 arg6 harg6 arg7 harg7 arg8 harg8 arg9 harg9 hc0 x0 x1 x2 x3 x4 x5).1
def out0_A_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) : Vec F S400x10000 .bf16 :=
  View.canon (kernelRun0_A c i arg1 harg1 arg2 harg2 arg3 harg3 arg4 harg4 arg5 harg5 arg6 harg6 arg7 harg7 arg8 harg8 arg9 harg9 hc0 x0 x1 x2 x3 x4 x5).2.1
def sout0_A (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) : Vec F S10000x256 .bf16 :=
  View.canon (kernelRun0_A c i arg1 harg1 arg2 harg2 arg3 harg3 arg4 harg4 arg5 harg5 arg6 harg6 arg7 harg7 arg8 harg8 arg9 harg9 hc0 x0 x1 x2 x3 x4 x5).2.2.1
/-- What a later point leaves in the two outputs' buffers, from the scratch as carried. -/
def out0_B_6 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) : Vec F S400x256 .bf16 :=
  View.canon (kernelRun0_B c i arg1 harg1 arg2 harg2 arg3 harg3 arg4 harg4 arg5 harg5 arg6 harg6 arg7 harg7 arg8 harg8 arg9 harg9 hc0 x0 x1 x2 x3 x4 x5 xs).1
def out0_B_7 (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) : Vec F S400x10000 .bf16 :=
  View.canon (kernelRun0_B c i arg1 harg1 arg2 harg2 arg3 harg3 arg4 harg4 arg5 harg5 arg6 harg6 arg7 harg7 arg8 harg8 arg9 harg9 hc0 x0 x1 x2 x3 x4 x5 xs).2.1

/-! ## The carried scratch and the outputs, point by point -/

/-- What the scratch holds after any point: what the first point stored. -/
def sc0 (c : Dev nD) : Vec F S10000x256 .bf16 :=
  sout0_A c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) scM0 (Memref.isWhole_whole _) ((hcond0_0 t00).mpr rfl) (iblk0 V c 0 t00) (iblk0 V c 1 t00) (iblk0 V c 2 t00) (iblk0 V c 3 t00) (iblk0 V c 4 t00) (iblk0 V c 5 t00)

/-- What the two outputs' staging buffers hold after the body at point t. -/
def outs0 (c : Dev nD) (t : Fin cfg0.N) : Vec F S400x256 .bf16 × Vec F S400x10000 .bf16 :=
  if h : t.val = 0 then
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t),
     out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t))
  else
    (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c),
     out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c))

theorem outs0_A (c : Dev nD) (t : Fin cfg0.N) (h : t.val = 0) :
    outs0 V c t = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t),
     out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t)) := by
  unfold outs0; exact dif_pos h
theorem outs0_B (c : Dev nD) (t : Fin cfg0.N) (h : ¬t.val = 0) :
    outs0 V c t = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c),
     out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c)) := by
  unfold outs0; exact dif_neg h

/-- The region invariant before position n: before the first point, the scoped buffers no window stages at anything and
    the generator register at some state; afterwards the same with the scratch at what the first point stored. -/
def PhiS (c : Dev nD) : ℕ → sProp 𝕄
  | 0 => Pipeline.ΦA spec0 c
  | _ + 1 => iprop(iprop(owns (c : Thread nD τ) scM0 fullShare (sc0 V c)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop(iprop(owns (c : Thread nD τ) scM0 fullShare (sc0 V c)
      ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (hz : n ≠ 0) :
    PhiS V c n = iprop(iprop(owns (c : Thread nD τ) scM0 fullShare (sc0 V c)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The launch's invariant with the scratch split off as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list (win := spec0) (c := c) [cc0_scratch0] (by decide) (by decide)]
  simp only [Idealize.SL.BI.bigSepL_singleton, scM0, owns_whole]; try rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outs0 V c t).1
    | ⟨7, _⟩ => (outs0 V c t).2
  Φ t := PhiS V c t.val
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outs0 V c t).1 := by dsimp only [dat0]
theorem after0_7 (c : Dev nD) (t : Fin cfg0.N) : (dat0 V c).after 7 t = (outs0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4800000 in
/-- The body at any point. At the first point the invariant hands the body the scratch at anything and takes it back at
    what the body stored; at a later point it hands it at what the first point stored and takes it back unchanged. The
    inputs' memrefs hold their blocks; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) from rfl, PhiS_succ]
  rw [after0_0, after0_1, after0_2, after0_3, after0_4, after0_5, after0_6, after0_7]
  by_cases h0 : t.val = 0
  · obtain rfl : t = t00 := Fin.ext h0
    rw [outs0_A V c t00 h0]
    unfold out0_A_6 out0_A_7 sc0 sout0_A; (try dsimp only)
    rw [PhiS_castSucc V c t00, PhiS_zero V c _ h0, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t00) _ _ _ _ _ _ _ _ _ _ _ _ _ _ _ _ _ _ ((hcond0_0 t00).mpr h0) (iblk0 V c 0 t00) (iblk0 V c 1 t00) (iblk0 V c 2 t00) (iblk0 V c 3 t00) (iblk0 V c 4 t00) (iblk0 V c 5 t00)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS Hrest Hg]
    · isplitl [HS Hrest]
      · isplitl [HS]
        · unfold owns; iexists _; isplitr
          swap; · iexact HS
          ipureintro; exact View.read_writes_eq_canon _ _ _ (scover0_A c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_A_6 c _ _ _ _ _ _ _ _ _ _ _ _ _ _ _ _ _ _ _ _ _ _ _ _ _ _)
    unfold owns; iexists _; isplitr
    swap; · iexact H7
    ipureintro; exact View.read_writes_eq_canon _ _ _ (cover0_A_7 c _ _ _ _ _ _ _ _ _ _ _ _ _ _ _ _ _ _ _ _ _ _ _ _ _ _)
  · rw [outs0_B V c t h0]
    unfold out0_B_6 out0_B_7; (try dsimp only)
    rw [PhiS_castSucc V c t, PhiS_pos V c _ h0]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun hc => h0 ((hcond0_0 t).mp hc)) (iblk0 V c 0 t) (iblk0 V c 1 t) (iblk0 V c 2 t) (iblk0 V c 3 t) (iblk0 V c 4 t) (iblk0 V c 5 t) (sc0 V c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover0_B_6 c _ _ _ _ _ _ _ _ _ _ _ _ _ _ _ _ _ _ _ _ _ _ _ _ _ _ _)
    unfold owns; iexists _; isplitr
    swap; · iexact H7
    ipureintro; exact View.read_writes_eq_canon _ _ _ (cover0_B_7 c _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, Hrest⟩, Hg⟩
  isplitl [HS Hrest]
  · isplitl [HS]
    · iexists _; iexact HS
    iexact Hrest
  iexact Hg

end Region0

end Cert.KernelIdeal.Gen

end
-- ==== Proof.Frame1I.lean ====
/-
  The second pallas_call, one grid point at a time: what each window's staging buffer holds when the body is
  called, what the body leaves in the output's buffer, and the body's triple. Row block t of the adjacency copy and
  the whole of the previous layer's features go in; the body stores relu(block · features) · W + b, one whole
  block, into the output's buffer. Everything is stated at the contents V the region is entered with, for any
  float instance.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each a whole buffer. -/
abbrev r1_0 : Rect S1000x10000 := Rect.unit (s := S1000x10000) ![0, 0] S1000x10000.size inb_S1000x10000_S1000x10000_0_0
abbrev r1_1 : Rect S10000x256 := Rect.unit (s := S10000x256) ![0, 0] S10000x256.size inb_S10000x256_S10000x256_0_0
abbrev r1_2 : Rect S256x256 := Rect.unit (s := S256x256) ![0, 0] S256x256.size inb_S256x256_S256x256_0_0
abbrev r1_3 : Rect S1x256 := Rect.unit (s := S1x256) ![0, 0] S1x256.size inb_S1x256_S1x256_0_0
abbrev r1_4 : Rect S1000x256 := Rect.unit (s := S1000x256) ![0, 0] S1000x256.size inb_S1000x256_S1000x256_0_0

/-- The output's staging buffer after the body, from the input windows' blocks: its one store as a piece. -/
def out1_4 (x0 : Vec F S1000x10000 .bf16) (x1 : Vec F S10000x256 .bf16) (x2 : Vec F S256x256 .bf16) (x3 : Vec F S1x256 .f32) : Vec F S1000x256 .bf16 :=
  View.canon [⟨r1_4, k1_pay1 (View.ld x0 r1_0) (View.ld x1 r1_1) (View.ld x2 r1_2) (View.ld x3 r1_3)⟩]

/-- The one store is the whole buffer, so it covers it. -/
theorem cover1_4 (p0 : Vec F S1000x256 .bf16) (y : S1000x256.Idx) :
    ∃ pc ∈ ([⟨r1_4, p0⟩] : List (View.Piece (Elt F) S1000x256 .bf16)), y ∈ pc.1.set :=
  View.cover_of_tiled [⟨r1_4, p0⟩] S1000x256.size (by rfl) y

set_option maxHeartbeats 2000000 in
/-- The body on whole staging memrefs, the inputs' at contents x_w and the output's at anything, runs to the
    continuation holding the inputs' as they were and the output's at out1_4 of the inputs'. -/
theorem sound_kernel1 (c : Dev nD) (E : Set ℕ) (i : grid1.Coords)
    (arg1 : Memref sig .tc .vmem S1000x10000 .bf16) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S1000x256 .bf16) (harg5 : arg5.IsWhole)
    (x0 : Vec F S1000x10000 .bf16) (x1 : Vec F S10000x256 .bf16) (x2 : Vec F S256x256 .bf16) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__l2_kernel i arg1 harg1 arg2 harg2 arg3 harg3 arg4 harg4 arg5 harg5) K := by
  simp only [cc1__l2_kernel_eq_skeleton]; unfold cc1__l2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-- The proof data of this pipeline on core c: the arrays as the region finds them; after the body at point t each
    input's buffer at its block and the output's at out1_4 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.Frame2I.lean ====
/-
  The third pallas_call, one grid point at a time: what each window's staging buffer holds when the body is
  called, what the body leaves in the output's buffer, and the body's triple. Row block t of the adjacency copy, the
  whole of the previous layer's features and the head's three weight matrices and bias rows go in; the body stores
  the head applied to relu(block · features), one whole block of the result, into the output's buffer. Everything
  is stated at the contents V the region is entered with, for any float instance.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each a whole buffer. -/
abbrev r2_0 : Rect S1000x10000 := Rect.unit (s := S1000x10000) ![0, 0] S1000x10000.size inb_S1000x10000_S1000x10000_0_0
abbrev r2_1 : Rect S10000x256 := Rect.unit (s := S10000x256) ![0, 0] S10000x256.size inb_S10000x256_S10000x256_0_0
abbrev r2_2 : Rect S256x128 := Rect.unit (s := S256x128) ![0, 0] S256x128.size inb_S256x128_S256x128_0_0
abbrev r2_3 : Rect S1x128 := Rect.unit (s := S1x128) ![0, 0] S1x128.size inb_S1x128_S1x128_0_0
abbrev r2_4 : Rect S128x64 := Rect.unit (s := S128x64) ![0, 0] S128x64.size inb_S128x64_S128x64_0_0
abbrev r2_5 : Rect S1x64 := Rect.unit (s := S1x64) ![0, 0] S1x64.size inb_S1x64_S1x64_0_0
abbrev r2_6 : Rect S64x16 := Rect.unit (s := S64x16) ![0, 0] S64x16.size inb_S64x16_S64x16_0_0
abbrev r2_7 : Rect S1x16 := Rect.unit (s := S1x16) ![0, 0] S1x16.size inb_S1x16_S1x16_0_0
abbrev r2_8 : Rect S1000x16 := Rect.unit (s := S1000x16) ![0, 0] S1000x16.size inb_S1000x16_S1000x16_0_0

/-- The output's staging buffer after the body, from the input windows' blocks: its one store as a piece. -/
def out2_8 (x0 : Vec F S1000x10000 .bf16) (x1 : Vec F S10000x256 .bf16) (x2 : Vec F S256x128 .bf16) (x3 : Vec F S1x128 .f32) (x4 : Vec F S128x64 .bf16) (x5 : Vec F S1x64 .f32) (x6 : Vec F S64x16 .bf16) (x7 : Vec F S1x16 .f32) : Vec F S1000x16 .f32 :=
  View.canon [⟨r2_8, k2_pay1 (View.ld x0 r2_0) (View.ld x1 r2_1) (View.ld x2 r2_2) (View.ld x3 r2_3) (View.ld x4 r2_4) (View.ld x5 r2_5) (View.ld x6 r2_6) (View.ld x7 r2_7)⟩]

/-- The one store is the whole buffer, so it covers it. -/
theorem cover2_8 (p0 : Vec F S1000x16 .f32) (y : S1000x16.Idx) :
    ∃ pc ∈ ([⟨r2_8, p0⟩] : List (View.Piece (Elt F) S1000x16 .f32)), y ∈ pc.1.set :=
  View.cover_of_tiled [⟨r2_8, p0⟩] S1000x16.size (by rfl) y

set_option maxHeartbeats 2000000 in
/-- The body on whole staging memrefs, the inputs' at contents x_w and the output's at anything, runs to the
    continuation holding the inputs' as they were and the output's at out2_8 of the inputs'. -/
theorem sound_kernel2 (c : Dev nD) (E : Set ℕ) (i : grid2.Coords)
    (arg1 : Memref sig .tc .vmem S1000x10000 .bf16) (harg1 : arg1.IsWhole) (arg2 : Memref sig .tc .vmem S10000x256 .bf16) (harg2 : arg2.IsWhole) (arg3 : Memref sig .tc .vmem S256x128 .bf16) (harg3 : arg3.IsWhole) (arg4 : Memref sig .tc .vmem S1x128 .f32) (harg4 : arg4.IsWhole) (arg5 : Memref sig .tc .vmem S128x64 .bf16) (harg5 : arg5.IsWhole) (arg6 : Memref sig .tc .vmem S1x64 .f32) (harg6 : arg6.IsWhole) (arg7 : Memref sig .tc .vmem S64x16 .bf16) (harg7 : arg7.IsWhole) (arg8 : Memref sig .tc .vmem S1x16 .f32) (harg8 : arg8.IsWhole) (arg9 : Memref sig .tc .vmem S1000x16 .f32) (harg9 : arg9.IsWhole)
    (x0 : Vec F S1000x10000 .bf16) (x1 : Vec F S10000x256 .bf16) (x2 : Vec F S256x128 .bf16) (x3 : Vec F S1x128 .f32) (x4 : Vec F S128x64 .bf16) (x5 : Vec F S1x64 .f32) (x6 : Vec F S64x16 .bf16) (x7 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9) K := by
  simp only [cc2__head_kernel_eq_skeleton]; unfold cc2__head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

/-- The proof data of this pipeline on core c: the arrays as the region finds them; after the body at point t each
    input's buffer at its block and the output's at out2_8 of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.RunI.lean ====
/-
  The whole program as a run: the host operations before the first pallas_call, then the three pallas_calls one after
  the other, each entered from the buffers' contents the one before left. The contents at each boundary are named
  (the launch memory, then the host operations applied, then each pipeline's arrays at what its write-backs leave),
  each pallas_call is a region record over "every unscoped buffer at the boundary's contents, the generator register
  at some state, nothing owed", and the launch theorem gives: every weakly fair execution terminates, nothing faults,
  and every unscoped buffer ends at the last boundary's contents.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import proofs.«110443_g37520834297963_cont_8to1_b_1472_13_alg».proof.Proof.Gen.KernelIdeal.Regions
import proofs.«110443_g37520834297963_cont_8to1_b_1472_13_alg».proof.Proof.Frame0I
import proofs.«110443_g37520834297963_cont_8to1_b_1472_13_alg».proof.Proof.Frame1I
import proofs.«110443_g37520834297963_cont_8to1_b_1472_13_alg».proof.Proof.Frame2I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers after the host operations, read at the TensorCore's references: what the first pallas_call is entered
    from. -/
abbrev T1 : (c : Dev nD) → (b : Ref sig .tc) → Buf (Elt F) ((c : Thread nD τ).loc b) := fun c b => V1 m c b

/-- The unscoped buffers when the first pallas_call is left: its arrays at what the pipeline leaves (the inputs
    as entered, each output's write-backs folded), every other buffer as entered. -/
def U2 (c : Dev nD) : Valuation τ sig (Elt F) :=
  Pipeline.withArrays spec0 c (V1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = V1 m c (Proc.devRef .tc b) := by
  unfold U2; exact Pipeline.withArrays_of_ne spec0 c _ _ b hb
/-- The same read at the TensorCore's references. -/
abbrev T2 : (c : Dev nD) → (b : Ref sig .tc) → Buf (Elt F) ((c : Thread nD τ).loc b) := fun c b => U2 m c b
theorem hF0 (c : Dev nD) (w : Fin cfg0.W) : (dat0 (T1 m) c).arrAt w cfg0.N = T2 m c (Pipeline.arrRef spec0 w) :=
  (U2_arr m c w).symm
theorem hrest0 (c : Dev nD) : ∀ b, b ∉ Finset.univ.image (Pipeline.arrRef spec0) → T2 m c b = T1 m c b :=
  fun b hb => U2_of_ne m c b fun w e => hb (Finset.mem_image.mpr ⟨w, Finset.mem_univ _, e⟩)

/-- The unscoped buffers when the second pallas_call is left: its arrays at what the pipeline leaves (the inputs
    as entered, each output's write-backs folded), every other buffer as entered. -/
def U3 (c : Dev nD) : Valuation τ sig (Elt F) :=
  Pipeline.withArrays spec1 c (U2 m c) fun w => (dat1 (T2 m) c).arrAt w cfg1.N
theorem U3_arr (c : Dev nD) (w : Fin cfg1.W) :
    U3 m c (Proc.devRef .tc (Pipeline.arrRef spec1 w)) = (dat1 (T2 m) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
/-- The same read at the TensorCore's references. -/
abbrev T3 : (c : Dev nD) → (b : Ref sig .tc) → Buf (Elt F) ((c : Thread nD τ).loc b) := fun c b => U3 m c b
theorem hF1 (c : Dev nD) (w : Fin cfg1.W) : (dat1 (T2 m) c).arrAt w cfg1.N = T3 m c (Pipeline.arrRef spec1 w) :=
  (U3_arr m c w).symm
theorem hrest1 (c : Dev nD) : ∀ b, b ∉ Finset.univ.image (Pipeline.arrRef spec1) → T3 m c b = T2 m c b :=
  fun b hb => U3_of_ne m c b fun w e => hb (Finset.mem_image.mpr ⟨w, Finset.mem_univ _, e⟩)

/-- The unscoped buffers when the third pallas_call is left: its arrays at what the pipeline leaves (the inputs
    as entered, each output's write-backs folded), every other buffer as entered. -/
def U4 (c : Dev nD) : Valuation τ sig (Elt F) :=
  Pipeline.withArrays spec2 c (U3 m c) fun w => (dat2 (T3 m) c).arrAt w cfg2.N
theorem U4_arr (c : Dev nD) (w : Fin cfg2.W) :
    U4 m c (Proc.devRef .tc (Pipeline.arrRef spec2 w)) = (dat2 (T3 m) c).arrAt w cfg2.N := by
  unfold U4; exact Pipeline.withArrays_arr spec2 launch2.win.arr_inj c _ _ w
theorem U4_of_ne (c : Dev nD) (b : Ref sig .tc) (hb : ∀ w, Pipeline.arrRef spec2 w ≠ b) :
    U4 m c (Proc.devRef .tc b) = U3 m c (Proc.devRef .tc b) := by
  unfold U4; exact Pipeline.withArrays_of_ne spec2 c _ _ b hb
/-- The same read at the TensorCore's references. -/
abbrev T4 : (c : Dev nD) → (b : Ref sig .tc) → Buf (Elt F) ((c : Thread nD τ).loc b) := fun c b => U4 m c b
theorem hF2 (c : Dev nD) (w : Fin cfg2.W) : (dat2 (T3 m) c).arrAt w cfg2.N = T4 m c (Pipeline.arrRef spec2 w) :=
  (U4_arr m c w).symm
theorem hrest2 (c : Dev nD) : ∀ b, b ∉ Finset.univ.image (Pipeline.arrRef spec2) → T4 m c b = T3 m c b :=
  fun b hb => U4_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (U4 m c) ∗ ∃ r, prngReg c r)

/-! ## The pallas_calls as segments -/

-- a library lemma stated over the pinned configuration unifies with the printed one only when unification may unfold
-- plain definitions in a metavariable's type
set_option backward.isDefEq.respectTransparency.types false in
/-- The first pallas_call over the thread state: its arrays split out of the unscoped buffers and put back at
    the exit contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (T1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call over the thread state: its arrays split out of the unscoped buffers and put back at
    the exit contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third pallas_call over the thread state: its arrays split out of the unscoped buffers and put back at
    the exit contents; the generator register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T3 m) c).loose
  hwaits := Pipeline.hwaits_of_owed_zero _ _ _ _ L lv 2 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm (pdats m) () defs₀ 𝒱₀ L lv) :=
  [ .host (hseg hostOps0 hostOps0_sub hostOps0_fresh (V0 m)),
    .region (reg0 m),
    .region (reg1 m),
    .region (reg2 m) ]
theorem main_run (c : Dev nD) : main (F := F) c = Pipeline.Seg.run (segsH m) := (main_chain c).trans (by chain_rfl)

variable (ρ : Dev nD → PrngReg)

set_option backward.isDefEq.respectTransparency.types false in
/-- THE RUN, at any float instance: from any memory with zero counters every weakly fair execution of the program on
    the TensorCores terminates, nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c => h c)

end Cert.KernelIdeal.Gen

end
-- ==== Proof.ArgsI.lean ====
/-
  No step of the program writes an argument array: the host operations write their own result buffers, and each
  pallas_call writes back only its output windows' arrays. So every argument is read back, boundary by boundary, to the
  launch memory — the adjacency matrix through the first pallas_call's input window, which hands an input array back as
  it found it — and the run gives the frame claim: every execution terminates, nothing faults, the arguments end
  unchanged.
-/
import proofs.«110443_g37520834297963_cont_8to1_b_1472_13_alg».proof.Proof.Gen.KernelIdeal.Launch
import proofs.«110443_g37520834297963_cont_8to1_b_1472_13_alg».proof.Proof.Gen.KernelIdeal.Skeleton
import proofs.«110443_g37520834297963_cont_8to1_b_1472_13_alg».proof.Proof.Gen.KernelIdeal.Points
import proofs.«110443_g37520834297963_cont_8to1_b_1472_13_alg».proof.Proof.RunI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that is no window's array of any pallas_call and that no host operation writes ends as launched. -/
theorem U4_untouched (c : Dev nD) (b : Ref sig .tc) (h2 : ∀ w, Pipeline.arrRef spec2 w ≠ b) (h1 : ∀ w, Pipeline.arrRef spec1 w ≠ b)
    (h0 : ∀ w, Pipeline.arrRef spec0 w ≠ b) (hW : b ∉ hostOps0_W) :
    U4 m c (Proc.devRef .tc b) = m ((c : Thread nD τ).loc b) :=
  (U4_of_ne m c b h2).trans <| (U3_of_ne m c b h1).trans <| (U2_of_ne m c b h0).trans <| (V1_of m c b hW).trans rfl

theorem U4_main_arg0 (c : Dev nD) : U4 m c (Proc.devRef .tc main_arg0) = m ((c : Thread nD τ).loc main_arg0) :=
  U4_untouched m c main_arg0 (by decide) (by decide) (by decide) (by decide)
theorem U4_main_arg2 (c : Dev nD) : U4 m c (Proc.devRef .tc main_arg2) = m ((c : Thread nD τ).loc main_arg2) :=
  U4_untouched m c main_arg2 (by decide) (by decide) (by decide) (by decide)
theorem U4_main_arg3 (c : Dev nD) : U4 m c (Proc.devRef .tc main_arg3) = m ((c : Thread nD τ).loc main_arg3) :=
  U4_untouched m c main_arg3 (by decide) (by decide) (by decide) (by decide)
theorem U4_main_arg4 (c : Dev nD) : U4 m c (Proc.devRef .tc main_arg4) = m ((c : Thread nD τ).loc main_arg4) :=
  U4_untouched m c main_arg4 (by decide) (by decide) (by decide) (by decide)
theorem U4_main_arg5 (c : Dev nD) : U4 m c (Proc.devRef .tc main_arg5) = m ((c : Thread nD τ).loc main_arg5) :=
  U4_untouched m c main_arg5 (by decide) (by decide) (by decide) (by decide)
theorem U4_main_arg6 (c : Dev nD) : U4 m c (Proc.devRef .tc main_arg6) = m ((c : Thread nD τ).loc main_arg6) :=
  U4_untouched m c main_arg6 (by decide) (by decide) (by decide) (by decide)
theorem U4_main_arg7 (c : Dev nD) : U4 m c (Proc.devRef .tc main_arg7) = m ((c : Thread nD τ).loc main_arg7) :=
  U4_untouched m c main_arg7 (by decide) (by decide) (by decide) (by decide)
theorem U4_main_arg8 (c : Dev nD) : U4 m c (Proc.devRef .tc main_arg8) = m ((c : Thread nD τ).loc main_arg8) :=
  U4_untouched m c main_arg8 (by decide) (by decide) (by decide) (by decide)
theorem U4_main_arg9 (c : Dev nD) : U4 m c (Proc.devRef .tc main_arg9) = m ((c : Thread nD τ).loc main_arg9) :=
  U4_untouched m c main_arg9 (by decide) (by decide) (by decide) (by decide)
theorem U4_main_arg10 (c : Dev nD) : U4 m c (Proc.devRef .tc main_arg10) = m ((c : Thread nD τ).loc main_arg10) :=
  U4_untouched m c main_arg10 (by decide) (by decide) (by decide) (by decide)
theorem U4_main_arg11 (c : Dev nD) : U4 m c (Proc.devRef .tc main_arg11) = m ((c : Thread nD τ).loc main_arg11) :=
  U4_untouched m c main_arg11 (by decide) (by decide) (by decide) (by decide)
theorem U4_main_arg12 (c : Dev nD) : U4 m c (Proc.devRef .tc main_arg12) = m ((c : Thread nD τ).loc main_arg12) :=
  U4_untouched m c main_arg12 (by decide) (by decide) (by decide) (by decide)
theorem U4_main_arg13 (c : Dev nD) : U4 m c (Proc.devRef .tc main_arg13) = m ((c : Thread nD τ).loc main_arg13) :=
  U4_untouched m c main_arg13 (by decide) (by decide) (by decide) (by decide)
/-- The adjacency matrix is the first pallas_call's input window 0: the pipeline hands it back as entered. -/
theorem U4_main_arg1 (c : Dev nD) : U4 m c (Proc.devRef .tc main_arg1) = m ((c : Thread nD τ).loc main_arg1) :=
  (U4_of_ne m c main_arg1 (by decide)).trans <| (U3_of_ne m c main_arg1 (by decide)).trans <| (U2_arr m c 0).trans <|
    ((dat0 (T1 m) c).arrAt_in 0 rfl _).trans <| (A_eq0 (T1 m) c 0).trans <| (V1_of m c main_arg1 (by decide)).trans rfl

variable (ρ : Dev nD → PrngReg)

/-- THE FRAME, at any float instance: every weakly fair execution terminates, nothing faulting, and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (U4_main_arg0 m c),
     (h c _ (mem_uc main_arg1 (by decide))).trans (U4_main_arg1 m c),
     (h c _ (mem_uc main_arg2 (by decide))).trans (U4_main_arg2 m c),
     (h c _ (mem_uc main_arg3 (by decide))).trans (U4_main_arg3 m c),
     (h c _ (mem_uc main_arg4 (by decide))).trans (U4_main_arg4 m c),
     (h c _ (mem_uc main_arg5 (by decide))).trans (U4_main_arg5 m c),
     (h c _ (mem_uc main_arg6 (by decide))).trans (U4_main_arg6 m c),
     (h c _ (mem_uc main_arg7 (by decide))).trans (U4_main_arg7 m c),
     (h c _ (mem_uc main_arg8 (by decide))).trans (U4_main_arg8 m c),
     (h c _ (mem_uc main_arg9 (by decide))).trans (U4_main_arg9 m c),
     (h c _ (mem_uc main_arg10 (by decide))).trans (U4_main_arg10 m c),
     (h c _ (mem_uc main_arg11 (by decide))).trans (U4_main_arg11 m c),
     (h c _ (mem_uc main_arg12 (by decide))).trans (U4_main_arg12 m c),
     (h c _ (mem_uc main_arg13 (by decide))).trans (U4_main_arg13 m c)⟩) (run_all m ρ)

end Cert.KernelIdeal.Gen

end
-- ==== Proof.Spec.lean ====
/-
  The function both programs compute, on the extended reals, entry by entry.

  A three-layer graph convolution followed by a three-layer perceptron head:
    g1 = X W1 + b1
    g2 = relu(A g1) W2 + b2
    g3 = relu(A g2) W3 + b3
    out = relu(relu(relu(A g3) Wp1 + bp1) Wp2 + bp2) Wp3 + bp3
  where a matrix product at (i, j) is the sum over the contracted index of the entries' products, a bias row is added
  to every row, and relu is the maximum with 0. Nothing here depends on an order of summation or on a tiling: each
  product is ONE finite sum over the whole contracted index.
-/
import Idealize.ShloMosaic.PureOps.Ideal
import Idealize.ShloMosaic.Lib.ValueIdx

noncomputable section

open scoped BigOperators

namespace Cert.Gcn

open Idealize.ShloMosaic Idealize.ShloMosaic.ValueIdx

/-- A rank-2 array read as a matrix of its two coordinates. -/
def mat {a b : ℕ} (v : (⟨2, ![a, b]⟩ : Shape).Idx → EReal) : Fin a → Fin b → EReal := fun i j => v (ix2 i j)

/-- A rank-1 array read as a vector of its coordinate. -/
def vec {a : ℕ} (v : (⟨1, ![a]⟩ : Shape).Idx → EReal) : Fin a → EReal := fun i => v (ix1 i)

/-- The matrix product: entry (i, j) is the sum over the contracted index of X i κ · W κ j. -/
def mm {n k d : ℕ} (X : Fin n → Fin k → EReal) (W : Fin k → Fin d → EReal) : Fin n → Fin d → EReal :=
  fun i j => ∑ κ : Fin k, X i κ * W κ j

/-- A linear layer: the product plus the bias row on every row. -/
def lin {n k d : ℕ} (X : Fin n → Fin k → EReal) (W : Fin k → Fin d → EReal) (b : Fin d → EReal) : Fin n → Fin d → EReal :=
  fun i j => mm X W i j + b j

/-- relu, entry by entry: the maximum with 0. -/
def relu {n d : ℕ} (H : Fin n → Fin d → EReal) : Fin n → Fin d → EReal := fun i j => max (H i j) 0

/-- One aggregation over the graph: relu of the adjacency matrix times the features. -/
def agg {n d : ℕ} (A : Fin n → Fin n → EReal) (H : Fin n → Fin d → EReal) : Fin n → Fin d → EReal := relu (mm A H)

section Layers

variable (X : Fin 10000 → Fin 256 → EReal) (A : Fin 10000 → Fin 10000 → EReal)
  (W1 : Fin 256 → Fin 256 → EReal) (b1 : Fin 256 → EReal) (W2 : Fin 256 → Fin 256 → EReal) (b2 : Fin 256 → EReal)
  (W3 : Fin 256 → Fin 256 → EReal) (b3 : Fin 256 → EReal) (Wp1 : Fin 256 → Fin 128 → EReal) (bp1 : Fin 128 → EReal)
  (Wp2 : Fin 128 → Fin 64 → EReal) (bp2 : Fin 64 → EReal) (Wp3 : Fin 64 → Fin 16 → EReal) (bp3 : Fin 16 → EReal)

/-- The first layer's linear part. -/
def g1 : Fin 10000 → Fin 256 → EReal := lin X W1 b1
/-- The first aggregation followed by the second layer's linear part. -/
def g2 : Fin 10000 → Fin 256 → EReal := lin (agg A (g1 X W1 b1)) W2 b2
/-- The second aggregation followed by the third layer's linear part. -/
def g3 : Fin 10000 → Fin 256 → EReal := lin (agg A (g2 X A W1 b1 W2 b2)) W3 b3
/-- The head on the third aggregation: two hidden layers with relu, then the output layer. -/
def head (H : Fin 10000 → Fin 256 → EReal) : Fin 10000 → Fin 16 → EReal :=
  lin (relu (lin (relu (lin H Wp1 bp1)) Wp2 bp2)) Wp3 bp3
/-- The whole network. -/
def out : Fin 10000 → Fin 16 → EReal :=
  head Wp1 bp1 Wp2 bp2 Wp3 bp3 (agg A (g3 X A W1 b1 W2 b2 W3 b3))

end Layers

/-- The network's result as an array over the fourteen argument arrays, entry by entry. -/
def outArr (x : (⟨2, ![10000, 256]⟩ : Shape).Idx → EReal) (adj : (⟨2, ![10000, 10000]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 256]⟩ : Shape).Idx → EReal) (b3 : (⟨1, ![256]⟩ : Shape).Idx → EReal)
    (wp1 : (⟨2, ![256, 128]⟩ : Shape).Idx → EReal) (bp1 : (⟨1, ![128]⟩ : Shape).Idx → EReal)
    (wp2 : (⟨2, ![128, 64]⟩ : Shape).Idx → EReal) (bp2 : (⟨1, ![64]⟩ : Shape).Idx → EReal)
    (wp3 : (⟨2, ![64, 16]⟩ : Shape).Idx → EReal) (bp3 : (⟨1, ![16]⟩ : Shape).Idx → EReal) :
    (⟨2, ![10000, 16]⟩ : Shape).Idx → EReal :=
  fun idx => out (mat x) (mat adj) (mat w1) (vec b1) (mat w2) (vec b2) (mat w3) (vec b3) (mat wp1) (vec bp1)
    (mat wp2) (vec bp2) (mat wp3) (vec bp3) (idx 0) (idx 1)

end Cert.Gcn

end
-- ==== Proof.SpecRow.lean ====
/-
  A bias kept as a [1, d] row, read as the vector of its d entries.
-/
import proofs.«110443_g37520834297963_cont_8to1_b_1472_13_alg».proof.Proof.Spec

noncomputable section

namespace Cert.Gcn

open Idealize.ShloMosaic Idealize.ShloMosaic.ValueIdx

/-- The one row of a [1, d] array, as a vector. -/
def row {d : ℕ} (v : (⟨2, ![1, d]⟩ : Shape).Idx → EReal) : Fin d → EReal := fun q => v (ix2 0 q)

end Cert.Gcn

end
-- ==== Proof.HostPre.lean ====
/-
  What the kernels find in the buffers the host prepared before the first of them runs.

  The host narrows seven arrays — the features and the six weight matrices — to the products' format, and views each of
  the six bias vectors [d] as its one row [1, d]. On the extended reals a change of format is the identity, and the one
  row of a vector reads the vector's entries in order; the adjacency matrix is not touched. So each prepared buffer
  holds its argument array, entry for entry.
-/
import proofs.«110443_g37520834297963_cont_8to1_b_1472_13_alg».proof.Proof.Gen.KernelIdeal.Regions
import proofs.«110443_g37520834297963_cont_8to1_b_1472_13_alg».proof.Proof.SpecRow
import Idealize.ShloMosaic.Lib.ValueLayout

noncomputable section

namespace Cert.Gcn.Host

open Cert.KernelIdeal Cert.KernelIdeal.Gen Idealize.ShloMosaic Idealize.ShloMosaic.ValueIdx Idealize.ShloMosaic.TcCoe

/-- A vector viewed as its one row, read back as a vector, is the vector. -/
theorem row_shapeCast {d : ℕ} (x : (⟨1, ![d]⟩ : Shape).Idx → EReal) (h : (⟨1, ![d]⟩ : Shape).ShapeCasts ⟨2, ![1, d]⟩) :
    row (shapeCast ⟨2, ![1, d]⟩ x h) = vec x :=
  funext fun q => shapeCast_a_1a_apply x h 0 q

variable (m : (ℓ : Loc nD τ sig) → Buf (Elt Ideal) ℓ) (c : Dev nD)

/-! ## The narrowed arrays -/

/-- The features, narrowed: unchanged. -/
theorem V1_main_v0 : V1 (F := Ideal) m c (Proc.devRef .tc main_v0) = m ((c : Thread nD τ).loc main_arg0) := by
  show StableHlo.after hostOps0 _ (Proc.devRef .tc main_v0) = _
  after_results
  rfl

/-- The first layer's weights, narrowed: unchanged. -/
theorem V1_main_v1 : V1 (F := Ideal) m c (Proc.devRef .tc main_v1) = m ((c : Thread nD τ).loc main_arg2) := by
  show StableHlo.after hostOps0 _ (Proc.devRef .tc main_v1) = _
  after_results
  rfl

/-- The second layer's weights, narrowed: unchanged. -/
theorem V1_main_v2 : V1 (F := Ideal) m c (Proc.devRef .tc main_v2) = m ((c : Thread nD τ).loc main_arg4) := by
  show StableHlo.after hostOps0 _ (Proc.devRef .tc main_v2) = _
  after_results
  rfl

/-- The third layer's weights, narrowed: unchanged. -/
theorem V1_main_v3 : V1 (F := Ideal) m c (Proc.devRef .tc main_v3) = m ((c : Thread nD τ).loc main_arg6) := by
  show StableHlo.after hostOps0 _ (Proc.devRef .tc main_v3) = _
  after_results
  rfl

/-- The head's first weights, narrowed: unchanged. -/
theorem V1_main_v4 : V1 (F := Ideal) m c (Proc.devRef .tc main_v4) = m ((c : Thread nD τ).loc main_arg8) := by
  show StableHlo.after hostOps0 _ (Proc.devRef .tc main_v4) = _
  after_results
  rfl

/-- The head's second weights, narrowed: unchanged. -/
theorem V1_main_v5 : V1 (F := Ideal) m c (Proc.devRef .tc main_v5) = m ((c : Thread nD τ).loc main_arg10) := by
  show StableHlo.after hostOps0 _ (Proc.devRef .tc main_v5) = _
  after_results
  rfl

/-- The head's third weights, narrowed: unchanged. -/
theorem V1_main_v6 : V1 (F := Ideal) m c (Proc.devRef .tc main_v6) = m ((c : Thread nD τ).loc main_arg12) := by
  show StableHlo.after hostOps0 _ (Proc.devRef .tc main_v6) = _
  after_results
  rfl

/-! ## The bias rows -/

/-- The first layer's bias, as a row: its entries in order. -/
theorem V1_main_v7 : row (V1 (F := Ideal) m c (Proc.devRef .tc main_v7)) = vec (m ((c : Thread nD τ).loc main_arg3)) := by
  show row (StableHlo.after (hostOps0 (F := Ideal)) _ (Proc.devRef .tc main_v7)) = _
  after_results
  exact row_shapeCast _ _

/-- The second layer's bias, as a row: its entries in order. -/
theorem V1_main_v8 : row (V1 (F := Ideal) m c (Proc.devRef .tc main_v8)) = vec (m ((c : Thread nD τ).loc main_arg5)) := by
  show row (StableHlo.after (hostOps0 (F := Ideal)) _ (Proc.devRef .tc main_v8)) = _
  after_results
  exact row_shapeCast _ _

/-- The third layer's bias, as a row: its entries in order. -/
theorem V1_main_v9 : row (V1 (F := Ideal) m c (Proc.devRef .tc main_v9)) = vec (m ((c : Thread nD τ).loc main_arg7)) := by
  show row (StableHlo.after (hostOps0 (F := Ideal)) _ (Proc.devRef .tc main_v9)) = _
  after_results
  exact row_shapeCast _ _

/-- The head's first bias, as a row: its entries in order. -/
theorem V1_main_v10 : row (V1 (F := Ideal) m c (Proc.devRef .tc main_v10)) = vec (m ((c : Thread nD τ).loc main_arg9)) := by
  show row (StableHlo.after (hostOps0 (F := Ideal)) _ (Proc.devRef .tc main_v10)) = _
  after_results
  exact row_shapeCast _ _

/-- The head's second bias, as a row: its entries in order. -/
theorem V1_main_v11 : row (V1 (F := Ideal) m c (Proc.devRef .tc main_v11)) = vec (m ((c : Thread nD τ).loc main_arg11)) := by
  show row (StableHlo.after (hostOps0 (F := Ideal)) _ (Proc.devRef .tc main_v11)) = _
  after_results
  exact row_shapeCast _ _

/-- The head's third bias, as a row: its entries in order. -/
theorem V1_main_v12 : row (V1 (F := Ideal) m c (Proc.devRef .tc main_v12)) = vec (m ((c : Thread nD τ).loc main_arg13)) := by
  show row (StableHlo.after (hostOps0 (F := Ideal)) _ (Proc.devRef .tc main_v12)) = _
  after_results
  exact row_shapeCast _ _

/-! ## The adjacency matrix -/

/-- The host writes nothing into the adjacency matrix. -/
theorem V1_main_arg1 : V1 (F := Ideal) m c (Proc.devRef .tc main_arg1) = m ((c : Thread nD τ).loc main_arg1) :=
  (V1_of m c main_arg1 (by decide)).trans rfl

end Cert.Gcn.Host

end
-- ==== Proof.Pieces0.lean ====
/-
  The first kernel's body, read as values.

  At the grid's first point the body stores the first layer's linear part into the scratch, then the adjacency block
  narrowed into one output buffer and relu(block · scratch) · W2 + b2 into the other, the scratch read back being what
  was just stored; at every later point the scratch is only read. Each buffer is written by one store of its whole
  extent, so what it ends holding is that store's payload, and a whole-buffer load reads the buffer's contents.
-/
import proofs.«110443_g37520834297963_cont_8to1_b_1472_13_alg».proof.Proof.Frame0RunAI
import proofs.«110443_g37520834297963_cont_8to1_b_1472_13_alg».proof.Proof.Frame0RunBI
import Idealize.ShloMosaic.Lib.Pipeline.Value
import Idealize.ShloMosaic.Lib.Tactic

noncomputable section

namespace Cert.Gcn.Pieces

open Cert.KernelIdeal Cert.KernelIdeal.Gen Idealize.ShloMosaic Idealize.ShloMosaic.TcCoe Idealize.ShloMosaic.Tactic

variable {F : FTy → Type} [FloatOps F]

theorem zero_offsets0 : (![0, 0] : Fin 2 → Nat) = fun _ => 0 := funext fun a => by fin_cases a <;> rfl

/-! ## The grid's first point -/

/-- The second layer's output block: relu(block · scratch) · W2 + b2, the scratch being the first layer's linear part
    just stored. -/
theorem runA_layer (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) :
    View.canon (kernelRun0_A c i arg1 harg1 arg2 harg2 arg3 harg3 arg4 harg4 arg5 harg5 arg6 harg6 arg7 harg7 arg8 harg8 arg9 harg9 hc0 x0 x1 x2 x3 x4 x5).1 = k0_pay3 x0 (k0_pay1 x1 x2 x3) x4 x5 := by
  unfold kernelRun0_A
  dsimp only
  sl_unfold_words
  rw [View.canon_unit_zero zero_offsets0, View.readCov_unit_zero (S := S10000x256) _ zero_offsets0]
  simp only [View.readAt_eq_ld, harg1.read_unread, harg2.read_unread, harg3.read_unread, harg4.read_unread,
    harg5.read_unread, harg6.read_unread, View.ld_unit_zero (S := S400x10000) zero_offsets0,
    View.ld_unit_zero (S := S10000x256) zero_offsets0, View.ld_unit_zero (S := S256x256) zero_offsets0,
    View.ld_unit_zero (S := S1x256) zero_offsets0]

/-- The adjacency block, narrowed. -/
theorem runA_adj (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) :
    View.canon (kernelRun0_A c i arg1 harg1 arg2 harg2 arg3 harg3 arg4 harg4 arg5 harg5 arg6 harg6 arg7 harg7 arg8 harg8 arg9 harg9 hc0 x0 x1 x2 x3 x4 x5).2.1 = k0_pay2 x0 := by
  unfold kernelRun0_A
  dsimp only
  rw [View.canon_unit_zero zero_offsets0]
  simp only [View.readAt_eq_ld, harg1.read_unread, View.ld_unit_zero (S := S400x10000) zero_offsets0]

/-- The scratch: the first layer's linear part. -/
theorem runA_scratch (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : cond0_0 i) (x0 : Vec F S400x10000 .f32) (x1 : Vec F S10000x256 .bf16) (x2 : Vec F S256x256 .bf16) (x3 : Vec F S1x256 .f32) (x4 : Vec F S256x256 .bf16) (x5 : Vec F S1x256 .f32) :
    View.canon (kernelRun0_A c i arg1 harg1 arg2 harg2 arg3 harg3 arg4 harg4 arg5 harg5 arg6 harg6 arg7 harg7 arg8 harg8 arg9 harg9 hc0 x0 x1 x2 x3 x4 x5).2.2.1 = k0_pay1 x1 x2 x3 := by
  unfold kernelRun0_A
  dsimp only
  sl_unfold_words
  rw [View.canon_unit_zero zero_offsets0]
  simp only [View.readAt_eq_ld, harg2.read_unread, harg3.read_unread, harg4.read_unread,
    View.ld_unit_zero (S := S10000x256) zero_offsets0, View.ld_unit_zero (S := S256x256) zero_offsets0,
    View.ld_unit_zero (S := S1x256) zero_offsets0]

/-! ## Every later point -/

/-- The second layer's output block from the scratch as found. -/
theorem runB_layer (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) :
    View.canon (kernelRun0_B c i arg1 harg1 arg2 harg2 arg3 harg3 arg4 harg4 arg5 harg5 arg6 harg6 arg7 harg7 arg8 harg8 arg9 harg9 hc0 x0 x1 x2 x3 x4 x5 xs).1 = k0_pay3 x0 xs x4 x5 := by
  unfold kernelRun0_B
  dsimp only
  rw [View.canon_unit_zero zero_offsets0]
  simp only [View.readAt_eq_ld, harg1.read_unread, harg5.read_unread, harg6.read_unread, harg9.read_unread,
    View.ld_unit_zero (S := S400x10000) zero_offsets0, View.ld_unit_zero (S := S10000x256) zero_offsets0,
    View.ld_unit_zero (S := S256x256) zero_offsets0, View.ld_unit_zero (S := S1x256) zero_offsets0]

/-- The adjacency block, narrowed. -/
theorem runB_adj (c : Dev nD) (i : grid0.Coords) (arg1 : Memref sig .tc .vmem S400x10000 .f32) (harg1 : arg1.IsWhole) (arg2 : Memref sig .tc .vmem S10000x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S400x256 .bf16) (harg7 : arg7.IsWhole) (arg8 : Memref sig .tc .vmem S400x10000 .bf16) (harg8 : arg8.IsWhole) (arg9 : Memref sig .tc .vmem S10000x256 .bf16) (harg9 : arg9.IsWhole) (hc0 : ¬cond0_0 i) (x0 : Vec F S400x10000 .f32) (x1 : Vec F S10000x256 .bf16) (x2 : Vec F S256x256 .bf16) (x3 : Vec F S1x256 .f32) (x4 : Vec F S256x256 .bf16) (x5 : Vec F S1x256 .f32) (xs : Vec F S10000x256 .bf16) :
    View.canon (kernelRun0_B c i arg1 harg1 arg2 harg2 arg3 harg3 arg4 harg4 arg5 harg5 arg6 harg6 arg7 harg7 arg8 harg8 arg9 harg9 hc0 x0 x1 x2 x3 x4 x5 xs).2.1 = k0_pay2 x0 := by
  unfold kernelRun0_B
  dsimp only
  rw [View.canon_unit_zero zero_offsets0]
  simp only [View.readAt_eq_ld, harg1.read_unread, View.ld_unit_zero (S := S400x10000) zero_offsets0]

end Cert.Gcn.Pieces

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.PayAt.lean ====
/-
  The kernel bodies' arithmetic read at one entry, on the extended reals.

  Every body builds its block from three kinds of step: a matrix product into a zero accumulator, a bias row added to
  every row, and a maximum with zero; roundings to a narrower format stand between the steps. On the extended reals a
  change of format is the identity, a product into zero is the plain finite sum over the contracted coordinate, and
  the zero word is the number 0. So the entry (p, q) of each block is a nested sum of products, written out below:
    first layer        (x w + b)(p, q)              = ∑ κ, x(p, κ) w(κ, q) + b(0, q)
    an aggregation     (relu(a g) w + b)(p, q)      = ∑ κ, max (∑ ν, a(p, ν) g(ν, κ)) 0 · w(κ, q) + b(0, q)
    the head           three such layers on relu(a g), the last without its maximum.
  Nothing here needs the entries to be finite, and no sum is re-ordered.
-/
import proofs.«110443_g37520834297963_cont_8to1_b_1472_13_alg».proof.Proof.Gen.KernelIdeal.Skeleton
import proofs.«110443_g37520834297963_cont_8to1_b_1472_13_alg».proof.Proof.LibMlpAt

noncomputable section

open scoped BigOperators

namespace Cert.Gcn.Pay

open Cert.KernelIdeal Cert.KernelIdeal.Gen Idealize.ShloMosaic Idealize.ShloMosaic.ValueIdx Cert.Mlp

/-! ## The three steps at an entry, for any sizes -/

section Steps

variable {n k d : Nat} {φ₁ φ₂ : FTy}

/-- A product into zero plus a bias row: entry (p, q) is the sum over the contracted coordinate plus the row's entry q. -/
theorem lin_at (wA : DotDims.WF ⟨2, ![n, k]⟩ ⟨2, ![k, d]⟩ ⟨2, ![n, d]⟩ [1] [0] [0] [1] [] [])
    (hb : (⟨2, ![1, d]⟩ : Shape).Broadcasts ⟨2, ![n, d]⟩)
    (x : FVec Ideal ⟨2, ![n, k]⟩ φ₁) (w : FVec Ideal ⟨2, ![k, d]⟩ φ₂) (b : FVec Ideal ⟨2, ![1, d]⟩ .f32) (p : Fin n) (q : Fin d) :
    addf (matmul (D2 wA) none x w (constant ⟨2, ![n, d]⟩ .f32 0x00000000#32)) (broadcastTo ⟨2, ![n, d]⟩ b hb) (ix2 p q)
      = (∑ κ : Fin k, x (ix2 p κ) * w (ix2 κ q)) + b (ix2 (0 : Fin 1) q) := by
  rw [addf_apply, matmul_zero_at, broadcastTo_1b_ab_apply]

/-- The maximum of a product into zero with the zero splat: entry (p, q) is the maximum of the sum with 0. -/
theorem relu_mm_at (wA : DotDims.WF ⟨2, ![n, k]⟩ ⟨2, ![k, d]⟩ ⟨2, ![n, d]⟩ [1] [0] [0] [1] [] [])
    (a : FVec Ideal ⟨2, ![n, k]⟩ φ₁) (g : FVec Ideal ⟨2, ![k, d]⟩ φ₂) (p : Fin n) (q : Fin d) :
    maximumf (matmul (D2 wA) none a g (constant ⟨2, ![n, d]⟩ .f32 0x00000000#32))
        (broadcast ⟨2, ![n, d]⟩ (Scalar.ofBits (F := Ideal) .f32 0x00000000#32)) (ix2 p q)
      = max (∑ ν : Fin k, a (ix2 p ν) * g (ix2 ν q)) 0 := by
  rw [maximumf_apply, matmul_zero_at, broadcast_apply]
  exact congrArg (max _) Ideal.ofBits_zero_f32

/-- The maximum of a product plus bias row with the zero splat. -/
theorem relu_lin_at (wA : DotDims.WF ⟨2, ![n, k]⟩ ⟨2, ![k, d]⟩ ⟨2, ![n, d]⟩ [1] [0] [0] [1] [] [])
    (hb : (⟨2, ![1, d]⟩ : Shape).Broadcasts ⟨2, ![n, d]⟩)
    (x : FVec Ideal ⟨2, ![n, k]⟩ φ₁) (w : FVec Ideal ⟨2, ![k, d]⟩ φ₂) (b : FVec Ideal ⟨2, ![1, d]⟩ .f32) (p : Fin n) (q : Fin d) :
    maximumf (addf (matmul (D2 wA) none x w (constant ⟨2, ![n, d]⟩ .f32 0x00000000#32)) (broadcastTo ⟨2, ![n, d]⟩ b hb))
        (broadcast ⟨2, ![n, d]⟩ (Scalar.ofBits (F := Ideal) .f32 0x00000000#32)) (ix2 p q)
      = max ((∑ κ : Fin k, x (ix2 p κ) * w (ix2 κ q)) + b (ix2 (0 : Fin 1) q)) 0 := by
  rw [maximumf_apply, lin_at, broadcast_apply]
  exact congrArg (max _) Ideal.ofBits_zero_f32

end Steps

section Block

variable {n k d e : Nat} {φ₁ φ₂ φ₃ : FTy}

/-- An aggregation followed by a linear layer: relu(a g) w + b at (p, q). The maximum's result is narrowed to the
    second product's format first, which changes nothing. -/
theorem agg_lin_at (wA : DotDims.WF ⟨2, ![n, k]⟩ ⟨2, ![k, d]⟩ ⟨2, ![n, d]⟩ [1] [0] [0] [1] [] [])
    (wB : DotDims.WF ⟨2, ![n, d]⟩ ⟨2, ![d, e]⟩ ⟨2, ![n, e]⟩ [1] [0] [0] [1] [] [])
    (hb : (⟨2, ![1, e]⟩ : Shape).Broadcasts ⟨2, ![n, e]⟩) (hlt : FTy.bf16.bits < FTy.f32.bits)
    (a : FVec Ideal ⟨2, ![n, k]⟩ φ₁) (g : FVec Ideal ⟨2, ![k, d]⟩ φ₂) (w : FVec Ideal ⟨2, ![d, e]⟩ φ₃) (b : FVec Ideal ⟨2, ![1, e]⟩ .f32)
    (p : Fin n) (q : Fin e) :
    addf (matmul (D2 wB) none
          (truncf .bf16 (maximumf (matmul (D2 wA) none a g (constant ⟨2, ![n, d]⟩ .f32 0x00000000#32))
            (broadcast ⟨2, ![n, d]⟩ (Scalar.ofBits (F := Ideal) .f32 0x00000000#32))) hlt)
          w (constant ⟨2, ![n, e]⟩ .f32 0x00000000#32))
        (broadcastTo ⟨2, ![n, e]⟩ b hb) (ix2 p q)
      = (∑ κ : Fin d, max (∑ ν : Fin k, a (ix2 p ν) * g (ix2 ν κ)) 0 * w (ix2 κ q)) + b (ix2 (0 : Fin 1) q) := by
  rw [lin_at]
  refine congrArg (· + b (ix2 (0 : Fin 1) q)) (Finset.sum_congr rfl fun κ _ => ?_)
  rw [truncf_apply, relu_mm_at]

end Block

/-! ## The first kernel's blocks -/

/-- The first linear layer, as the body stores it: x w + b at (p, q). -/
theorem pay1_at (x : FVec Ideal S10000x256 .bf16) (w : FVec Ideal S256x256 .bf16) (b : FVec Ideal S1x256 .f32) (p : Fin 10000) (q : Fin 256) :
    k0_pay1 (F := Ideal) x w b (ix2 p q) = (∑ κ : Fin 256, x (ix2 p κ) * w (ix2 κ q)) + b (ix2 0 q) := by
  unfold k0_pay1
  simp only [shapeCast_self]
  exact lin_at _ _ x w b p q

/-- The adjacency block narrowed to the product's format: unchanged. -/
theorem pay2_at (a : FVec Ideal S400x10000 .f32) (p : Fin 400) (q : Fin 10000) : k0_pay2 (F := Ideal) a (ix2 p q) = a (ix2 p q) := rfl

/-- One aggregation followed by a linear layer, on a block of 400 rows: relu(a s) w + b at (p, q). -/
theorem pay3_at (a : FVec Ideal S400x10000 .f32) (s : FVec Ideal S10000x256 .bf16) (w : FVec Ideal S256x256 .bf16) (b : FVec Ideal S1x256 .f32) (p : Fin 400) (q : Fin 256) :
    k0_pay3 (F := Ideal) a s w b (ix2 p q) = (∑ κ : Fin 256, max (∑ ν : Fin 10000, a (ix2 p ν) * s (ix2 ν κ)) 0 * w (ix2 κ q)) + b (ix2 0 q) := by
  unfold k0_pay3 k0_pay2
  simp only [shapeCast_self]
  exact agg_lin_at _ _ _ _ _ s w b p q

/-! ## The second kernel's block -/

/-- One aggregation followed by a linear layer, on a block of 1000 rows: relu(a g) w + b at (p, q). -/
theorem k1_pay1_at (a : FVec Ideal S1000x10000 .bf16) (g : FVec Ideal S10000x256 .bf16) (w : FVec Ideal S256x256 .bf16) (b : FVec Ideal S1x256 .f32) (p : Fin 1000) (q : Fin 256) :
    k1_pay1 (F := Ideal) a g w b (ix2 p q) = (∑ κ : Fin 256, max (∑ ν : Fin 10000, a (ix2 p ν) * g (ix2 ν κ)) 0 * w (ix2 κ q)) + b (ix2 0 q) := by
  unfold k1_pay1
  simp only [shapeCast_self]
  exact agg_lin_at _ _ _ _ a g w b p q

/-! ## The third kernel's block -/

/-- The last aggregation through the three-layer head, on a block of 1000 rows: each hidden layer is a product plus
    bias row under a maximum with zero, narrowed before the next product; the output layer has no maximum. -/
theorem k2_pay1_at (a : FVec Ideal S1000x10000 .bf16) (g : FVec Ideal S10000x256 .bf16) (wp1 : FVec Ideal S256x128 .bf16) (bp1 : FVec Ideal S1x128 .f32)
    (wp2 : FVec Ideal S128x64 .bf16) (bp2 : FVec Ideal S1x64 .f32) (wp3 : FVec Ideal S64x16 .bf16) (bp3 : FVec Ideal S1x16 .f32) (p : Fin 1000) (q : Fin 16) :
    k2_pay1 (F := Ideal) a g wp1 bp1 wp2 bp2 wp3 bp3 (ix2 p q)
      = (∑ κ3 : Fin 64, max ((∑ κ2 : Fin 128, max ((∑ κ1 : Fin 256, max (∑ ν : Fin 10000, a (ix2 p ν) * g (ix2 ν κ1)) 0 * wp1 (ix2 κ1 κ2)) + bp1 (ix2 0 κ2)) 0 * wp2 (ix2 κ2 κ3)) + bp2 (ix2 0 κ3)) 0 * wp3 (ix2 κ3 q)) + bp3 (ix2 0 q) := by
  unfold k2_pay1
  simp only [shapeCast_self]
  refine (lin_at _ _ _ wp3 bp3 p q).trans ?_
  refine congrArg (· + bp3 (ix2 0 q)) (Finset.sum_congr rfl fun κ3 _ => congrArg (· * wp3 (ix2 κ3 q)) ?_)
  refine (relu_lin_at _ _ _ wp2 bp2 p κ3).trans ?_
  refine congrArg (fun t => max (t + bp2 (ix2 0 κ3)) 0) (Finset.sum_congr rfl fun κ2 _ => congrArg (· * wp2 (ix2 κ2 κ3)) ?_)
  refine (relu_lin_at _ _ _ wp1 bp1 p κ2).trans ?_
  refine congrArg (fun t => max (t + bp1 (ix2 0 κ2)) 0) (Finset.sum_congr rfl fun κ1 _ => congrArg (· * wp1 (ix2 κ1 κ2)) ?_)
  exact relu_mm_at _ a g p κ1

end Cert.Gcn.Pay

end
-- ==== Proof.Final0.lean ====
/-
  The first kernel's two result arrays, entry by entry.

  Grid point t works on rows 400 t … 400 t + 399. At the first point the body also fills a scratch with the first
  layer's linear part X W1 + b1 of the WHOLE input arrays, and every later point reads that scratch unchanged; the
  windows that feed it are whole-array blocks that never move, so at every point the scratch is the same array. Each
  point reads its block of rows of the adjacency matrix, writes that block back in the narrower format — unchanged on
  the extended reals — and writes the block relu(A_block · scratch) · W2 + b2 of the same rows. The twenty-five blocks
  are disjoint and fill each array, so one array ends holding relu(A (X W1 + b1)) W2 + b2 and the other the adjacency
  matrix, each entry a plain sum over the contracted coordinate.
-/
import proofs.«110443_g37520834297963_cont_8to1_b_1472_13_alg».proof.Proof.Spec
import proofs.«110443_g37520834297963_cont_8to1_b_1472_13_alg».proof.Proof.SpecRow
import proofs.«110443_g37520834297963_cont_8to1_b_1472_13_alg».proof.Proof.Frame0I
import proofs.«110443_g37520834297963_cont_8to1_b_1472_13_alg».proof.Proof.Pieces0
import proofs.«110443_g37520834297963_cont_8to1_b_1472_13_alg».proof.Proof.PayAt
import Idealize.ShloMosaic.Lib.Pipeline.Value

noncomputable section

open scoped BigOperators

namespace Cert.Gcn.Final

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- There are twenty-five grid points. -/
theorem N0 : cfg0.N = 25 := N_0

/-- The block indices at every point: the adjacency block and the two output blocks move with the point along the
    rows; every other window is its whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## What the body leaves at a point -/

/-- What the scratch holds after any point is the first layer's linear part of the first point's input blocks. -/
theorem sc0_eq (c : Dev nD) :
    sc0 (F := Ideal) V c = k0_pay1 (iblk0 V c 1 t00) (iblk0 V c 2 t00) (iblk0 V c 3 t00) :=
  Pieces.runA_scratch (F := Ideal) c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) scM0 (Memref.isWhole_whole _) ((hcond0_0 t00).mpr rfl) (iblk0 V c 0 t00) (iblk0 V c 1 t00) (iblk0 V c 2 t00) (iblk0 V c 3 t00) (iblk0 V c 4 t00) (iblk0 V c 5 t00)

/-- The first output's buffer after the body at any point: the aggregation of the scratch through the second layer's
    linear part, on the point's block of rows. At a later point the scratch is the carried one, the same array. -/
theorem outs0_fst (c : Dev nD) (t : Fin cfg0.N) :
    (outs0 (F := Ideal) V c t).1
      = k0_pay3 (iblk0 V c 0 t) (k0_pay1 (iblk0 V c 1 t00) (iblk0 V c 2 t00) (iblk0 V c 3 t00)) (iblk0 V c 4 t) (iblk0 V c 5 t) := by
  by_cases h : t.val = 0
  · rw [outs0_A V c t h]
    obtain rfl : t = t00 := Fin.ext h
    dsimp only
    unfold out0_A_6
    exact Pieces.runA_layer (F := Ideal) c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) scM0 (Memref.isWhole_whole _) ((hcond0_0 t00).mpr h) (iblk0 V c 0 t00) (iblk0 V c 1 t00) (iblk0 V c 2 t00) (iblk0 V c 3 t00) (iblk0 V c 4 t00) (iblk0 V c 5 t00)
  · rw [outs0_B V c t h]
    dsimp only
    unfold out0_B_6
    rw [sc0_eq]
    exact Pieces.runB_layer (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) _

/-- The second output's buffer after the body at any point: the point's block of the adjacency matrix, narrowed. -/
theorem outs0_snd (c : Dev nD) (t : Fin cfg0.N) :
    (outs0 (F := Ideal) V c t).2 = k0_pay2 (iblk0 V c 0 t) := by
  by_cases h : t.val = 0
  · rw [outs0_A V c t h]
    dsimp only
    unfold out0_A_7
    exact Pieces.runA_adj (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h) (iblk0 V c 0 t) (iblk0 V c 1 t) (iblk0 V c 2 t) (iblk0 V c 3 t) (iblk0 V c 4 t) (iblk0 V c 5 t)
  · rw [outs0_B V c t h]
    dsimp only
    unfold out0_B_7
    exact Pieces.runB_adj (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun hc => h ((hcond0_0 t).mp hc)) (iblk0 V c 0 t) (iblk0 V c 1 t) (iblk0 V c 2 t) (iblk0 V c 3 t) (iblk0 V c 4 t) (iblk0 V c 5 t) (sc0 V c)

/-! ## The blocks the body reads -/

/-- The array the first kernel's first output ends holding: the first layer's linear part, one aggregation of it, and
    the second layer's linear part, entry by entry. -/
abbrev layer0 (c : Dev nD) : S10000x256.Idx → EReal := fun idx =>
  lin (agg (mat (V c main_arg1)) (lin (mat (V c main_v0)) (mat (V c main_v1)) (row (V c main_v7)))) (mat (V c main_v2)) (row (V c main_v8)) (idx 0) (idx 1)

/-- That array at row i and column q, written out: the nested sums of products. -/
theorem layer0_at (A : S10000x10000.Idx → EReal) (x : S10000x256.Idx → EReal) (w1 : S256x256.Idx → EReal) (b1 : S1x256.Idx → EReal)
    (w2 : S256x256.Idx → EReal) (b2 : S1x256.Idx → EReal) (i : Fin 10000) (q : Fin 256) :
    lin (agg (mat A) (lin (mat x) (mat w1) (row b1))) (mat w2) (row b2) i q
      = (∑ κ : Fin 256, max (∑ ν : Fin 10000, A (ix2 i ν) * ((∑ κ' : Fin 256, x (ix2 ν κ') * w1 (ix2 κ' κ)) + b1 (ix2 0 κ))) 0 * w2 (ix2 κ q))
        + b2 (ix2 0 q) := rfl

/-- Row p of point t's block is row 400 t + p of the array. -/
def rowAt0 (t : Fin cfg0.N) (p : Fin 400) : Fin 10000 :=
  ⟨400 * t.val + p.val, by have ht := t.isLt; have hN := N0; have hp := p.isLt; omega⟩

/-- The adjacency block at point t, at (p, ν), is the adjacency matrix at (400 t + p, ν). -/
theorem iblk0_0_at (c : Dev nD) (t : Fin cfg0.N) (p : Fin 400) (ν : Fin 10000) :
    (iblk0 (F := Ideal) V c 0 t : S400x10000.Idx → EReal) (ix2 p ν)
      = (V c main_arg1 : S10000x10000.Idx → EReal) (ix2 (rowAt0 t p) ν) := by
  obtain ⟨e0, e1, -⟩ := idx_facts0 t
  unfold iblk0
  rw [View.read_apply]
  show V c main_arg1 _ = V c main_arg1 _
  congr 1
  funext a; apply Fin.ext
  match a with
  | ⟨0, _⟩ => show win0_0.index t (0 : Fin 2) * 400 + 1 * p.val = 400 * t.val + p.val; rw [e0]; omega
  | ⟨1, _⟩ => show win0_0.index t (1 : Fin 2) * 10000 + 1 * ν.val = ν.val; rw [e1]; omega

/-- The features' window is the whole features array at every point. -/
theorem iblk0_1_eq (c : Dev nD) (t : Fin cfg0.N) :
    (iblk0 (F := Ideal) V c 1 t : S10000x256.Idx → EReal) = V c main_v0 := by
  obtain ⟨-, -, e0, e1, -⟩ := idx_facts0 t
  funext x
  unfold iblk0
  rw [View.read_apply]
  show V c main_v0 _ = V c main_v0 x
  congr 1
  funext a; apply Fin.ext
  match a with
  | ⟨0, _⟩ => show win0_1.index t (0 : Fin 2) * 10000 + 1 * (x 0).val = (x 0).val; rw [e0]; omega
  | ⟨1, _⟩ => show win0_1.index t (1 : Fin 2) * 256 + 1 * (x 1).val = (x 1).val; rw [e1]; omega

/-- The first layer's weights' window is the whole matrix at every point. -/
theorem iblk0_2_eq (c : Dev nD) (t : Fin cfg0.N) :
    (iblk0 (F := Ideal) V c 2 t : S256x256.Idx → EReal) = V c main_v1 := by
  obtain ⟨-, -, -, -, e0, e1, -⟩ := idx_facts0 t
  funext x
  unfold iblk0
  rw [View.read_apply]
  show V c main_v1 _ = V c main_v1 x
  congr 1
  funext a; apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- The first layer's bias row's window is the whole row at every point. -/
theorem iblk0_3_eq (c : Dev nD) (t : Fin cfg0.N) :
    (iblk0 (F := Ideal) V c 3 t : S1x256.Idx → EReal) = V c main_v7 := by
  obtain ⟨-, -, -, -, -, -, e0, e1, -⟩ := idx_facts0 t
  funext x
  unfold iblk0
  rw [View.read_apply]
  show V c main_v7 _ = V c main_v7 x
  congr 1
  funext a; apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The second layer's weights' window is the whole matrix at every point. -/
theorem iblk0_4_eq (c : Dev nD) (t : Fin cfg0.N) :
    (iblk0 (F := Ideal) V c 4 t : S256x256.Idx → EReal) = V c main_v2 := by
  obtain ⟨-, -, -, -, -, -, -, -, e0, e1, -⟩ := idx_facts0 t
  funext x
  unfold iblk0
  rw [View.read_apply]
  show V c main_v2 _ = V c main_v2 x
  congr 1
  funext a; apply Fin.ext
  match a with
  | ⟨0, _⟩ => show win0_4.index t (0 : Fin 2) * 256 + 1 * (x 0).val = (x 0).val; rw [e0]; omega
  | ⟨1, _⟩ => show win0_4.index t (1 : Fin 2) * 256 + 1 * (x 1).val = (x 1).val; rw [e1]; omega

/-- The second layer's bias row's window is the whole row at every point. -/
theorem iblk0_5_eq (c : Dev nD) (t : Fin cfg0.N) :
    (iblk0 (F := Ideal) V c 5 t : S1x256.Idx → EReal) = V c main_v8 := by
  obtain ⟨-, -, -, -, -, -, -, -, -, -, e0, e1, -⟩ := idx_facts0 t
  funext x
  unfold iblk0
  rw [View.read_apply]
  show V c main_v8 _ = V c main_v8 x
  congr 1
  funext a; apply Fin.ext
  match a with
  | ⟨0, _⟩ => show win0_5.index t (0 : Fin 2) * 1 + 1 * (x 0).val = (x 0).val; rw [e0]; omega
  | ⟨1, _⟩ => show win0_5.index t (1 : Fin 2) * 256 + 1 * (x 1).val = (x 1).val; rw [e1]; omega

/-- What point t writes back from the first output's buffer is block t of the layer. -/
theorem flushed0_6_eq (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6, outs0_fst]
  obtain ⟨-, -, -, -, -, -, -, -, -, -, -, -, e0, e1, -⟩ := idx_facts0 t
  funext j
  obtain ⟨p, q, rfl⟩ : ∃ (p : Fin 400) (q : Fin 256), j = ix2 p q := ⟨j 0, j 1, eq_ix2 j⟩
  show k0_pay3 (F := Ideal) (iblk0 V c 0 t) (k0_pay1 (iblk0 V c 1 t00) (iblk0 V c 2 t00) (iblk0 V c 3 t00)) (iblk0 V c 4 t) (iblk0 V c 5 t) (ix2 p q)
    = layer0 V c (((cfg0.win 6).blk t).view.emb (ix2 p q))
  have hemb : ((cfg0.win 6).blk t).view.emb (ix2 p q) = (ix2 (rowAt0 t p) q : S10000x256.Idx) := by
    funext a; apply Fin.ext
    match a with
    | ⟨0, _⟩ => show win0_6.index t (0 : Fin 2) * 400 + 1 * p.val = 400 * t.val + p.val; rw [e0]; omega
    | ⟨1, _⟩ => show win0_6.index t (1 : Fin 2) * 256 + 1 * q.val = q.val; rw [e1]; omega
  rw [hemb, Pay.pay3_at, iblk0_4_eq, iblk0_5_eq]
  simp only [iblk0_0_at, Pay.pay1_at, iblk0_1_eq, iblk0_2_eq, iblk0_3_eq]
  exact (layer0_at _ _ _ _ _ _ (rowAt0 t p) q).symm

/-- What point t writes back from the second output's buffer is block t of the adjacency matrix. -/
theorem flushed0_7_eq (c : Dev nD) (t : Fin cfg0.N) :
    (dat0 (F := Ideal) V c).flushed 7 t
      = ((cfg0.win 7).blk t).view.read (Elt Ideal) (V c main_arg1 : S10000x10000.Idx → EReal) := by
  show (cfg0.win 7).cut (grid0.coords t) ((dat0 V c).after 7 t) = _
  rw [after0_7, outs0_snd]
  obtain ⟨-, -, -, -, -, -, -, -, -, -, -, -, -, -, e0, e1⟩ := idx_facts0 t
  funext j
  obtain ⟨p, ν, rfl⟩ : ∃ (p : Fin 400) (ν : Fin 10000), j = ix2 p ν := ⟨j 0, j 1, eq_ix2 j⟩
  show k0_pay2 (F := Ideal) (iblk0 V c 0 t) (ix2 p ν)
    = (V c main_arg1 : S10000x10000.Idx → EReal) (((cfg0.win 7).blk t).view.emb (ix2 p ν))
  have hemb : ((cfg0.win 7).blk t).view.emb (ix2 p ν) = (ix2 (rowAt0 t p) ν : S10000x10000.Idx) := by
    funext a; apply Fin.ext
    match a with
    | ⟨0, _⟩ => show win0_7.index t (0 : Fin 2) * 400 + 1 * p.val = 400 * t.val + p.val; rw [e0]; omega
    | ⟨1, _⟩ => show win0_7.index t (1 : Fin 2) * 10000 + 1 * ν.val = ν.val; rw [e1]; omega
  rw [hemb, Pay.pay2_at, iblk0_0_at]

/-- An index of the first output's array is in point t's block iff each coordinate is in the block's range. -/
theorem mem_blk0_6 (t : Fin cfg0.N) (i : S10000x256.Idx) :
    i ∈ ((cfg0.win 6).blk t).view.set ↔ ∀ a : Fin 2, win0_6.index t a * S400x256.size a ≤ (i a).val
      ∧ (i a).val < win0_6.index t a * S400x256.size a + S400x256.size a := by
  show i ∈ ((View.whole main_v13_0).slice (win0_6.rect t)).set ↔ _
  rw [View.set_slice_whole, Rect.mem_set_unit]
  exact Iff.rfl

/-- An index of the second output's array is in point t's block iff each coordinate is in the block's range. -/
theorem mem_blk0_7 (t : Fin cfg0.N) (i : S10000x10000.Idx) :
    i ∈ ((cfg0.win 7).blk t).view.set ↔ ∀ a : Fin 2, win0_7.index t a * S400x10000.size a ≤ (i a).val
      ∧ (i a).val < win0_7.index t a * S400x10000.size a + S400x10000.size a := by
  show i ∈ ((View.whole main_v13_1).slice (win0_7.rect t)).set ↔ _
  rw [View.set_slice_whole, Rect.mem_set_unit]
  exact Iff.rfl

/-- Every index of the first output's array is in the block of the point its row falls in: row r belongs to point
    r / 400. -/
theorem cover0_6 (i : S10000x256.Idx) :
    ∃ t : Fin cfg0.N, (cfg0.win 6).flush t = true ∧ i ∈ ((cfg0.win 6).blk t).view.set := by
  have h0 : (i 0).val < 10000 := (i 0).isLt
  have h1 : (i 1).val < 256 := (i 1).isLt
  let t : Fin cfg0.N := ⟨(i 0).val / 400, by rw [N0]; omega⟩
  obtain ⟨-, -, -, -, -, -, -, -, -, -, -, -, e0, e1, -⟩ := idx_facts0 t
  have ht : t.val = (i 0).val / 400 := rfl
  refine ⟨t, flush0_6 t, ?_⟩
  rw [mem_blk0_6]
  intro a
  match a with
  | ⟨0, _⟩ =>
    show win0_6.index t (0 : Fin 2) * 400 ≤ (i 0).val ∧ (i 0).val < win0_6.index t (0 : Fin 2) * 400 + 400
    rw [e0, ht]; omega
  | ⟨1, _⟩ =>
    show win0_6.index t (1 : Fin 2) * 256 ≤ (i 1).val ∧ (i 1).val < win0_6.index t (1 : Fin 2) * 256 + 256
    rw [e1]; omega

/-- The same for the second output's array. -/
theorem cover0_7 (i : S10000x10000.Idx) :
    ∃ t : Fin cfg0.N, (cfg0.win 7).flush t = true ∧ i ∈ ((cfg0.win 7).blk t).view.set := by
  have h0 : (i 0).val < 10000 := (i 0).isLt
  have h1 : (i 1).val < 10000 := (i 1).isLt
  let t : Fin cfg0.N := ⟨(i 0).val / 400, by rw [N0]; omega⟩
  obtain ⟨-, -, -, -, -, -, -, -, -, -, -, -, -, -, e0, e1⟩ := idx_facts0 t
  have ht : t.val = (i 0).val / 400 := rfl
  refine ⟨t, flush0_7 t, ?_⟩
  rw [mem_blk0_7]
  intro a
  match a with
  | ⟨0, _⟩ =>
    show win0_7.index t (0 : Fin 2) * 400 ≤ (i 0).val ∧ (i 0).val < win0_7.index t (0 : Fin 2) * 400 + 400
    rw [e0, ht]; omega
  | ⟨1, _⟩ =>
    show win0_7.index t (1 : Fin 2) * 10000 ≤ (i 1).val ∧ (i 1).val < win0_7.index t (1 : Fin 2) * 10000 + 10000
    rw [e1]; omega

/-- The first kernel's first output array after its twenty-five points: the layer, entry by entry. -/
theorem final0_6 (c : Dev nD) : ((dat0 (F := Ideal) V c).arrAt 6 cfg0.N : S10000x256.Idx → EReal)
    = fun idx => lin (agg (mat (V c main_arg1)) (lin (mat (V c main_v0)) (mat (V c main_v1)) (row (V c main_v7)))) (mat (V c main_v2)) (row (V c main_v8)) (idx 0) (idx 1) :=
  (dat0 V c).arrAt_eq_of_cover 6 (layer0 V c) (fun t _ => flushed0_6_eq V c t) cover0_6

/-- The first kernel's second output array after its twenty-five points: the adjacency matrix, entry by entry. -/
theorem final0_7 (c : Dev nD) : ((dat0 (F := Ideal) V c).arrAt 7 cfg0.N : S10000x10000.Idx → EReal)
    = (V c main_arg1 : S10000x10000.Idx → EReal) :=
  (dat0 V c).arrAt_eq_of_cover 7 (V c main_arg1 : S10000x10000.Idx → EReal) (fun t _ => flushed0_7_eq V c t) cover0_7

end Cert.Gcn.Final

end
-- ==== Proof.Final1.lean ====
/-
  The second kernel's result array, entry by entry.

  Grid point t works on rows 1000 t … 1000 t + 999: it reads that block of rows of the adjacency matrix and the whole
  of the previous layer's features, weights and bias row, and writes the block relu(A_block · H) · W + b of the same
  rows. The ten blocks are disjoint and fill the array, so the array ends holding relu(A · H) · W + b, each entry the
  plain sum over the contracted coordinate.
-/
import proofs.«110443_g37520834297963_cont_8to1_b_1472_13_alg».proof.Proof.Spec
import proofs.«110443_g37520834297963_cont_8to1_b_1472_13_alg».proof.Proof.SpecRow
import proofs.«110443_g37520834297963_cont_8to1_b_1472_13_alg».proof.Proof.Frame1I
import proofs.«110443_g37520834297963_cont_8to1_b_1472_13_alg».proof.Proof.PayAt
import Idealize.ShloMosaic.Lib.Pipeline.Value

noncomputable section

open scoped BigOperators

namespace Cert.Gcn.Final

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The array the second kernel's output ends holding: one aggregation of the incoming features followed by a
    linear layer, entry by entry. -/
abbrev layer1 (c : Dev nD) : S10000x256.Idx → EReal := fun idx =>
  lin (agg (mat (V c main_v13_1)) (mat (V c main_v13_0))) (mat (V c main_v3)) (row (V c main_v9)) (idx 0) (idx 1)

/-- That layer at row i and column q, written out: the nested sums of products. -/
theorem layer1_at (A : S10000x10000.Idx → EReal) (g : S10000x256.Idx → EReal) (w : S256x256.Idx → EReal)
    (b : S1x256.Idx → EReal) (i : Fin 10000) (q : Fin 256) :
    lin (agg (mat A) (mat g)) (mat w) (row b) i q
      = (∑ κ : Fin 256, max (∑ ν : Fin 10000, A (ix2 i ν) * g (ix2 ν κ)) 0 * w (ix2 κ q)) + b (ix2 0 q) := rfl

/-- There are ten grid points. -/
theorem N1 : cfg1.N = 10 := N_1

/-- The block indices at every point: the adjacency block and the output block move with the point along the rows;
    every other window is its whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block is row 1000 t + p of the array. -/
def rowAt1 (t : Fin cfg1.N) (p : Fin 1000) : Fin 10000 :=
  ⟨1000 * t.val + p.val, by have ht := t.isLt; have hN := N1; have hp := p.isLt; omega⟩

/-- The adjacency block at point t, at (p, ν), is the adjacency copy at (1000 t + p, ν). -/
theorem iblk1_0_at (c : Dev nD) (t : Fin cfg1.N) (p : Fin 1000) (ν : Fin 10000) :
    (iblk1 (F := Ideal) V c 0 t : S1000x10000.Idx → EReal) (ix2 p ν)
      = (V c main_v13_1 : S10000x10000.Idx → EReal) (ix2 (rowAt1 t p) ν) := by
  obtain ⟨e0, e1, -⟩ := idx_facts1 t
  unfold iblk1
  rw [View.read_apply]
  show V c main_v13_1 _ = V c main_v13_1 _
  congr 1
  funext a; apply Fin.ext
  match a with
  | ⟨0, _⟩ => show win1_0.index t (0 : Fin 2) * 1000 + 1 * p.val = 1000 * t.val + p.val; rw [e0]; omega
  | ⟨1, _⟩ => show win1_0.index t (1 : Fin 2) * 10000 + 1 * ν.val = ν.val; rw [e1]; omega

/-- The features' window is the whole features array at every point. -/
theorem iblk1_1_eq (c : Dev nD) (t : Fin cfg1.N) :
    (iblk1 (F := Ideal) V c 1 t : S10000x256.Idx → EReal) = V c main_v13_0 := by
  obtain ⟨-, -, e0, e1, -⟩ := idx_facts1 t
  funext x
  unfold iblk1
  rw [View.read_apply]
  show V c main_v13_0 _ = V c main_v13_0 x
  congr 1
  funext a; apply Fin.ext
  match a with
  | ⟨0, _⟩ => show win1_1.index t (0 : Fin 2) * 10000 + 1 * (x 0).val = (x 0).val; rw [e0]; omega
  | ⟨1, _⟩ => show win1_1.index t (1 : Fin 2) * 256 + 1 * (x 1).val = (x 1).val; rw [e1]; omega

/-- The weights' window is the whole weight matrix at every point. -/
theorem iblk1_2_eq (c : Dev nD) (t : Fin cfg1.N) :
    (iblk1 (F := Ideal) V c 2 t : S256x256.Idx → EReal) = V c main_v3 := by
  obtain ⟨-, -, -, -, e0, e1, -⟩ := idx_facts1 t
  funext x
  unfold iblk1
  rw [View.read_apply]
  show V c main_v3 _ = V c main_v3 x
  congr 1
  funext a; apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- The bias row's window is the whole row at every point. -/
theorem iblk1_3_eq (c : Dev nD) (t : Fin cfg1.N) :
    (iblk1 (F := Ideal) V c 3 t : S1x256.Idx → EReal) = V c main_v9 := by
  obtain ⟨-, -, -, -, -, -, e0, e1, -⟩ := idx_facts1 t
  funext x
  unfold iblk1
  rw [View.read_apply]
  show V c main_v9 _ = V c main_v9 x
  congr 1
  funext a; apply Fin.ext
  match a with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

/-- What point t writes back is block t of the layer. -/
theorem flushed1_eq (c : Dev nD) (t : Fin cfg1.N) :
    (dat1 (F := Ideal) V c).flushed 4 t = ((cfg1.win 4).blk t).view.read (Elt Ideal) (layer1 V c) := by
  show (cfg1.win 4).cut (grid1.coords t) ((dat1 V c).after 4 t) = _
  rw [after1_4]
  unfold out1_4
  rw [View.canon_unit_zero zero_offsets1]
  simp only [View.ld_unit_zero (S := S1000x10000) zero_offsets1, View.ld_unit_zero (S := S10000x256) zero_offsets1,
    View.ld_unit_zero (S := S256x256) zero_offsets1, View.ld_unit_zero (S := S1x256) zero_offsets1]
  obtain ⟨-, -, -, -, -, -, -, -, e0, e1⟩ := idx_facts1 t
  funext j
  obtain ⟨p, q, rfl⟩ : ∃ (p : Fin 1000) (q : Fin 256), j = ix2 p q := ⟨j 0, j 1, eq_ix2 j⟩
  show k1_pay1 (F := Ideal) (iblk1 V c 0 t) (iblk1 V c 1 t) (iblk1 V c 2 t) (iblk1 V c 3 t) (ix2 p q)
    = layer1 V c (((cfg1.win 4).blk t).view.emb (ix2 p q))
  have hemb : ((cfg1.win 4).blk t).view.emb (ix2 p q) = (ix2 (rowAt1 t p) q : S10000x256.Idx) := by
    funext a; apply Fin.ext
    match a with
    | ⟨0, _⟩ => show win1_4.index t (0 : Fin 2) * 1000 + 1 * p.val = 1000 * t.val + p.val; rw [e0]; omega
    | ⟨1, _⟩ => show win1_4.index t (1 : Fin 2) * 256 + 1 * q.val = q.val; rw [e1]; omega
  rw [hemb, Pay.k1_pay1_at, iblk1_1_eq, iblk1_2_eq, iblk1_3_eq]
  simp only [iblk1_0_at]
  exact (layer1_at _ _ _ _ (rowAt1 t p) q).symm

/-- An index of the array is in point t's block iff each coordinate is in the block's range on its axis. -/
theorem mem_blk1 (t : Fin cfg1.N) (i : S10000x256.Idx) :
    i ∈ ((cfg1.win 4).blk t).view.set ↔ ∀ a : Fin 2, win1_4.index t a * S1000x256.size a ≤ (i a).val
      ∧ (i a).val < win1_4.index t a * S1000x256.size a + S1000x256.size a := by
  show i ∈ ((View.whole main_v14).slice (win1_4.rect t)).set ↔ _
  rw [View.set_slice_whole, Rect.mem_set_unit]
  exact Iff.rfl

/-- Every index of the array is in the block of the point its row falls in: row r belongs to point r / 1000. -/
theorem cover1 (i : S10000x256.Idx) :
    ∃ t : Fin cfg1.N, (cfg1.win 4).flush t = true ∧ i ∈ ((cfg1.win 4).blk t).view.set := by
  have h0 : (i 0).val < 10000 := (i 0).isLt
  have h1 : (i 1).val < 256 := (i 1).isLt
  let t : Fin cfg1.N := ⟨(i 0).val / 1000, by rw [N1]; omega⟩
  obtain ⟨-, -, -, -, -, -, -, -, e0, e1⟩ := idx_facts1 t
  have ht : t.val = (i 0).val / 1000 := rfl
  refine ⟨t, flush1_4 t, ?_⟩
  rw [mem_blk1]
  intro a
  match a with
  | ⟨0, _⟩ =>
    show win1_4.index t (0 : Fin 2) * 1000 ≤ (i 0).val ∧ (i 0).val < win1_4.index t (0 : Fin 2) * 1000 + 1000
    rw [e0, ht]; omega
  | ⟨1, _⟩ =>
    show win1_4.index t (1 : Fin 2) * 256 ≤ (i 1).val ∧ (i 1).val < win1_4.index t (1 : Fin 2) * 256 + 256
    rw [e1]; omega

/-- The second kernel's output array after its ten points: the layer, entry by entry. -/
theorem final1 (c : Dev nD) : ((dat1 (F := Ideal) V c).arrAt 4 cfg1.N : S10000x256.Idx → EReal)
    = fun idx => lin (agg (mat (V c main_v13_1)) (mat (V c main_v13_0))) (mat (V c main_v3)) (row (V c main_v9)) (idx 0) (idx 1) :=
  (dat1 V c).arrAt_eq_of_cover 4 (layer1 V c) (fun t _ => flushed1_eq V c t) cover1

end Cert.Gcn.Final

end
-- ==== Proof.Final2.lean ====
/-
  The third kernel's result array, entry by entry.

  Grid point t works on rows 1000 t … 1000 t + 999: it reads that block of rows of the adjacency matrix and the whole
  of the last layer's features and of the head's three weight matrices and bias rows, and writes the block
  head(relu(A_block · H)) of the same rows. The ten blocks are disjoint and fill the array, so the array ends holding
  the head of relu(A · H), each entry a nested sum of products over the contracted coordinates.
-/
import proofs.«110443_g37520834297963_cont_8to1_b_1472_13_alg».proof.Proof.Spec
import proofs.«110443_g37520834297963_cont_8to1_b_1472_13_alg».proof.Proof.SpecRow
import proofs.«110443_g37520834297963_cont_8to1_b_1472_13_alg».proof.Proof.Frame2I
import proofs.«110443_g37520834297963_cont_8to1_b_1472_13_alg».proof.Proof.PayAt
import Idealize.ShloMosaic.Lib.Pipeline.Value

noncomputable section

open scoped BigOperators

namespace Cert.Gcn.Final

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The array the third kernel's output ends holding: the last aggregation through the three-layer head, entry by
    entry. -/
abbrev headArr (c : Dev nD) : S10000x16.Idx → EReal := fun idx =>
  head (mat (V c main_v4)) (row (V c main_v10)) (mat (V c main_v5)) (row (V c main_v11)) (mat (V c main_v6))
    (row (V c main_v12)) (agg (mat (V c main_v13_1)) (mat (V c main_v14))) (idx 0) (idx 1)

/-- The head of an aggregation at row i and column q, written out: the nested sums of products. -/
theorem head_at (A : S10000x10000.Idx → EReal) (g : S10000x256.Idx → EReal) (wp1 : S256x128.Idx → EReal)
    (bp1 : S1x128.Idx → EReal) (wp2 : S128x64.Idx → EReal) (bp2 : S1x64.Idx → EReal) (wp3 : S64x16.Idx → EReal)
    (bp3 : S1x16.Idx → EReal) (i : Fin 10000) (q : Fin 16) :
    head (mat wp1) (row bp1) (mat wp2) (row bp2) (mat wp3) (row bp3) (agg (mat A) (mat g)) i q
      = (∑ κ3 : Fin 64, max ((∑ κ2 : Fin 128, max ((∑ κ1 : Fin 256, max (∑ ν : Fin 10000, A (ix2 i ν) * g (ix2 ν κ1)) 0
          * wp1 (ix2 κ1 κ2)) + bp1 (ix2 0 κ2)) 0 * wp2 (ix2 κ2 κ3)) + bp2 (ix2 0 κ3)) 0 * wp3 (ix2 κ3 q)) + bp3 (ix2 0 q) := rfl

/-- There are ten grid points. -/
theorem N2 : cfg2.N = 10 := N_2

/-- The block indices at every point: the adjacency block and the output block move with the point along the rows;
    every other window is its whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row p of point t's block is row 1000 t + p of the array. -/
def rowAt2 (t : Fin cfg2.N) (p : Fin 1000) : Fin 10000 :=
  ⟨1000 * t.val + p.val, by have ht := t.isLt; have hN := N2; have hp := p.isLt; omega⟩

/-- The adjacency block at point t, at (p, ν), is the adjacency copy at (1000 t + p, ν). -/
theorem iblk2_0_at (c : Dev nD) (t : Fin cfg2.N) (p : Fin 1000) (ν : Fin 10000) :
    (iblk2 (F := Ideal) V c 0 t : S1000x10000.Idx → EReal) (ix2 p ν)
      = (V c main_v13_1 : S10000x10000.Idx → EReal) (ix2 (rowAt2 t p) ν) := by
  obtain ⟨e0, e1, -⟩ := idx_facts2 t
  unfold iblk2
  rw [View.read_apply]
  show V c main_v13_1 _ = V c main_v13_1 _
  congr 1
  funext a; apply Fin.ext
  match a with
  | ⟨0, _⟩ => show win2_0.index t (0 : Fin 2) * 1000 + 1 * p.val = 1000 * t.val + p.val; rw [e0]; omega
  | ⟨1, _⟩ => show win2_0.index t (1 : Fin 2) * 10000 + 1 * ν.val = ν.val; rw [e1]; omega

/-- The features' window is the whole features array at every point. -/
theorem iblk2_1_eq (c : Dev nD) (t : Fin cfg2.N) :
    (iblk2 (F := Ideal) V c 1 t : S10000x256.Idx → EReal) = V c main_v14 := by
  obtain ⟨-, -, e0, e1, -⟩ := idx_facts2 t
  funext x
  unfold iblk2
  rw [View.read_apply]
  show V c main_v14 _ = V c main_v14 x
  congr 1
  funext a; apply Fin.ext
  match a with
  | ⟨0, _⟩ => show win2_1.index t (0 : Fin 2) * 10000 + 1 * (x 0).val = (x 0).val; rw [e0]; omega
  | ⟨1, _⟩ => show win2_1.index t (1 : Fin 2) * 256 + 1 * (x 1).val = (x 1).val; rw [e1]; omega

/-- The first weight matrix's window is the whole matrix at every point. -/
theorem iblk2_2_eq (c : Dev nD) (t : Fin cfg2.N) :
    (iblk2 (F := Ideal) V c 2 t : S256x128.Idx → EReal) = V c main_v4 := by
  obtain ⟨-, -, -, -, e0, e1, -⟩ := idx_facts2 t
  funext x
  unfold iblk2
  rw [View.read_apply]
  show V c main_v4 _ = V c main_v4 x
  congr 1
  funext a; apply Fin.ext
  match a with
  | ⟨0, _⟩ => show win2_2.index t (0 : Fin 2) * 256 + 1 * (x 0).val = (x 0).val; rw [e0]; omega
  | ⟨1, _⟩ => show win2_2.index t (1 : Fin 2) * 128 + 1 * (x 1).val = (x 1).val; rw [e1]; omega

/-- The first bias row's window is the whole row at every point. -/
theorem iblk2_3_eq (c : Dev nD) (t : Fin cfg2.N) :
    (iblk2 (F := Ideal) V c 3 t : S1x128.Idx → EReal) = V c main_v10 := by
  obtain ⟨-, -, -, -, -, -, e0, e1, -⟩ := idx_facts2 t
  funext x
  unfold iblk2
  rw [View.read_apply]
  show V c main_v10 _ = V c main_v10 x
  congr 1
  funext a; apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The second weight matrix's window is the whole matrix at every point. -/
theorem iblk2_4_eq (c : Dev nD) (t : Fin cfg2.N) :
    (iblk2 (F := Ideal) V c 4 t : S128x64.Idx → EReal) = V c main_v5 := by
  obtain ⟨-, -, -, -, -, -, -, -, e0, e1, -⟩ := idx_facts2 t
  funext x
  unfold iblk2
  rw [View.read_apply]
  show V c main_v5 _ = V c main_v5 x
  congr 1
  funext a; apply Fin.ext
  match a with
  | ⟨0, _⟩ => show win2_4.index t (0 : Fin 2) * 128 + 1 * (x 0).val = (x 0).val; rw [e0]; omega
  | ⟨1, _⟩ => show win2_4.index t (1 : Fin 2) * 64 + 1 * (x 1).val = (x 1).val; rw [e1]; omega

/-- The second bias row's window is the whole row at every point. -/
theorem iblk2_5_eq (c : Dev nD) (t : Fin cfg2.N) :
    (iblk2 (F := Ideal) V c 5 t : S1x64.Idx → EReal) = V c main_v11 := by
  obtain ⟨-, -, -, -, -, -, -, -, -, -, e0, e1, -⟩ := idx_facts2 t
  funext x
  unfold iblk2
  rw [View.read_apply]
  show V c main_v11 _ = V c main_v11 x
  congr 1
  funext a; apply Fin.ext
  match a with
  | ⟨0, _⟩ => show win2_5.index t (0 : Fin 2) * 1 + 1 * (x 0).val = (x 0).val; rw [e0]; omega
  | ⟨1, _⟩ => show win2_5.index t (1 : Fin 2) * 64 + 1 * (x 1).val = (x 1).val; rw [e1]; omega

/-- The output weight matrix's window is the whole matrix at every point. -/
theorem iblk2_6_eq (c : Dev nD) (t : Fin cfg2.N) :
    (iblk2 (F := Ideal) V c 6 t : S64x16.Idx → EReal) = V c main_v6 := by
  obtain ⟨-, -, -, -, -, -, -, -, -, -, -, -, e0, e1, -⟩ := idx_facts2 t
  funext x
  unfold iblk2
  rw [View.read_apply]
  show V c main_v6 _ = V c main_v6 x
  congr 1
  funext a; apply Fin.ext
  match a with
  | ⟨0, _⟩ => show win2_6.index t (0 : Fin 2) * 64 + 1 * (x 0).val = (x 0).val; rw [e0]; omega
  | ⟨1, _⟩ => show win2_6.index t (1 : Fin 2) * 16 + 1 * (x 1).val = (x 1).val; rw [e1]; omega

/-- The output bias row's window is the whole row at every point. -/
theorem iblk2_7_eq (c : Dev nD) (t : Fin cfg2.N) :
    (iblk2 (F := Ideal) V c 7 t : S1x16.Idx → EReal) = V c main_v12 := by
  obtain ⟨-, -, -, -, -, -, -, -, -, -, -, -, -, -, e0, e1, -⟩ := idx_facts2 t
  funext x
  unfold iblk2
  rw [View.read_apply]
  show V c main_v12 _ = V c main_v12 x
  congr 1
  funext a; apply Fin.ext
  match a with
  | ⟨0, _⟩ => show win2_7.index t (0 : Fin 2) * 1 + 1 * (x 0).val = (x 0).val; rw [e0]; omega
  | ⟨1, _⟩ => show win2_7.index t (1 : Fin 2) * 16 + 1 * (x 1).val = (x 1).val; rw [e1]; omega

/-- What point t writes back is block t of the head's array. -/
theorem flushed2_eq (c : Dev nD) (t : Fin cfg2.N) :
    (dat2 (F := Ideal) V c).flushed 8 t = ((cfg2.win 8).blk t).view.read (Elt Ideal) (headArr V c) := by
  show (cfg2.win 8).cut (grid2.coords t) ((dat2 V c).after 8 t) = _
  rw [after2_8]
  unfold out2_8
  rw [View.canon_unit_zero zero_offsets2]
  simp only [View.ld_unit_zero (S := S1000x10000) zero_offsets2, View.ld_unit_zero (S := S10000x256) zero_offsets2,
    View.ld_unit_zero (S := S256x128) zero_offsets2, View.ld_unit_zero (S := S1x128) zero_offsets2,
    View.ld_unit_zero (S := S128x64) zero_offsets2, View.ld_unit_zero (S := S1x64) zero_offsets2,
    View.ld_unit_zero (S := S64x16) zero_offsets2, View.ld_unit_zero (S := S1x16) zero_offsets2]
  obtain ⟨-, -, -, -, -, -, -, -, -, -, -, -, -, -, -, -, e0, e1⟩ := idx_facts2 t
  funext j
  obtain ⟨p, q, rfl⟩ : ∃ (p : Fin 1000) (q : Fin 16), j = ix2 p q := ⟨j 0, j 1, eq_ix2 j⟩
  show k2_pay1 (F := Ideal) (iblk2 V c 0 t) (iblk2 V c 1 t) (iblk2 V c 2 t) (iblk2 V c 3 t) (iblk2 V c 4 t)
      (iblk2 V c 5 t) (iblk2 V c 6 t) (iblk2 V c 7 t) (ix2 p q)
    = headArr V c (((cfg2.win 8).blk t).view.emb (ix2 p q))
  have hemb : ((cfg2.win 8).blk t).view.emb (ix2 p q) = (ix2 (rowAt2 t p) q : S10000x16.Idx) := by
    funext a; apply Fin.ext
    match a with
    | ⟨0, _⟩ => show win2_8.index t (0 : Fin 2) * 1000 + 1 * p.val = 1000 * t.val + p.val; rw [e0]; omega
    | ⟨1, _⟩ => show win2_8.index t (1 : Fin 2) * 16 + 1 * q.val = q.val; rw [e1]; omega
  rw [hemb, Pay.k2_pay1_at, iblk2_1_eq, iblk2_2_eq, iblk2_3_eq, iblk2_4_eq, iblk2_5_eq, iblk2_6_eq, iblk2_7_eq]
  simp only [iblk2_0_at]
  exact (head_at _ _ _ _ _ _ _ _ (rowAt2 t p) q).symm

/-- An index of the array is in point t's block iff each coordinate is in the block's range on its axis. -/
theorem mem_blk2 (t : Fin cfg2.N) (i : S10000x16.Idx) :
    i ∈ ((cfg2.win 8).blk t).view.set ↔ ∀ a : Fin 2, win2_8.index t a * S1000x16.size a ≤ (i a).val
      ∧ (i a).val < win2_8.index t a * S1000x16.size a + S1000x16.size a := by
  show i ∈ ((View.whole main_v15).slice (win2_8.rect t)).set ↔ _
  rw [View.set_slice_whole, Rect.mem_set_unit]
  exact Iff.rfl

/-- Every index of the array is in the block of the point its row falls in: row r belongs to point r / 1000. -/
theorem cover2 (i : S10000x16.Idx) :
    ∃ t : Fin cfg2.N, (cfg2.win 8).flush t = true ∧ i ∈ ((cfg2.win 8).blk t).view.set := by
  have h0 : (i 0).val < 10000 := (i 0).isLt
  have h1 : (i 1).val < 16 := (i 1).isLt
  let t : Fin cfg2.N := ⟨(i 0).val / 1000, by rw [N2]; omega⟩
  obtain ⟨-, -, -, -, -, -, -, -, -, -, -, -, -, -, -, -, e0, e1⟩ := idx_facts2 t
  have ht : t.val = (i 0).val / 1000 := rfl
  refine ⟨t, flush2_8 t, ?_⟩
  rw [mem_blk2]
  intro a
  match a with
  | ⟨0, _⟩ =>
    show win2_8.index t (0 : Fin 2) * 1000 ≤ (i 0).val ∧ (i 0).val < win2_8.index t (0 : Fin 2) * 1000 + 1000
    rw [e0, ht]; omega
  | ⟨1, _⟩ =>
    show win2_8.index t (1 : Fin 2) * 16 ≤ (i 1).val ∧ (i 1).val < win2_8.index t (1 : Fin 2) * 16 + 16
    rw [e1]; omega

/-- The third kernel's output array after its ten points: the head of the last aggregation, entry by entry. -/
theorem final2 (c : Dev nD) : ((dat2 (F := Ideal) V c).arrAt 8 cfg2.N : S10000x16.Idx → EReal)
    = fun idx => head (mat (V c main_v4)) (row (V c main_v10)) (mat (V c main_v5)) (row (V c main_v11)) (mat (V c main_v6))
        (row (V c main_v12)) (agg (mat (V c main_v13_1)) (mat (V c main_v14))) (idx 0) (idx 1) :=
  (dat2 V c).arrAt_eq_of_cover 8 (headArr V c) (fun t _ => flushed2_eq V c t) cover2

end Cert.Gcn.Final

end
-- ==== Proof.Bridge.lean ====
/-
  The kernel's result, read back. After the third pallas_call the result buffer holds that pipeline's output array,
  which is the head applied to relu(A · g3) of the arrays that call was entered with; of those, the adjacency copy is
  what the first call wrote (the adjacency matrix itself, the change of format being the identity on the extended
  reals), g3 is what the second call wrote from that copy and g2, g2 is what the first call wrote from the adjacency
  matrix and the first linear layer, and every weight matrix and bias row is a host conversion or reshape of an
  argument that no pallas_call touches. Substituting boundary by boundary gives the specification's function of the
  fourteen arguments.
-/
import proofs.«110443_g37520834297963_cont_8to1_b_1472_13_alg».proof.Proof.RunI
import proofs.«110443_g37520834297963_cont_8to1_b_1472_13_alg».proof.Proof.ArgsI
import proofs.«110443_g37520834297963_cont_8to1_b_1472_13_alg».proof.Proof.HostPre
import proofs.«110443_g37520834297963_cont_8to1_b_1472_13_alg».proof.Proof.Final0
import proofs.«110443_g37520834297963_cont_8to1_b_1472_13_alg».proof.Proof.Final1
import proofs.«110443_g37520834297963_cont_8to1_b_1472_13_alg».proof.Proof.Final2

set_option maxRecDepth 16384

noncomputable section

namespace Cert.Gcn.Bridge

open Idealize.ShloMosaic Idealize.ShloMosaic.TcCoe Idealize.ShloMosaic.ValueIdx Idealize.SL.Sem
open Cert.KernelIdeal Cert.KernelIdeal.Gen Cert.Gcn Cert.Gcn.Final Cert.Gcn.Host

variable (m : (ℓ : Loc nD τ sig) → Buf (Elt Ideal) ℓ) (c : Dev nD)

/-- A buffer no window of the first pallas_call writes back is, after it, what the host operations left. -/
theorem T2_of (b : Ref sig .tc) (h0 : ∀ w, Pipeline.arrRef spec0 w ≠ b) : T2 m c b = V1 m c (Proc.devRef .tc b) :=
  U2_of_ne m c b h0
/-- The same after the second. -/
theorem T3_of (b : Ref sig .tc) (h1 : ∀ w, Pipeline.arrRef spec1 w ≠ b) (h0 : ∀ w, Pipeline.arrRef spec0 w ≠ b) :
    T3 m c b = V1 m c (Proc.devRef .tc b) :=
  (U3_of_ne m c b h1).trans (U2_of_ne m c b h0)

/-- The adjacency copy the first pallas_call writes is the adjacency matrix. -/
theorem T2_adj : (T2 m c main_v13_1 : S10000x10000.Idx → EReal) = m ((c : Thread nD τ).loc main_arg1) :=
  (U2_arr m c 7).trans ((final0_7 (T1 m) c).trans (V1_main_arg1 m c))

/-- It reaches the third pallas_call unchanged: the second only reads it. -/
theorem T3_adj : (T3 m c main_v13_1 : S10000x10000.Idx → EReal) = m ((c : Thread nD τ).loc main_arg1) :=
  (U3_arr m c 0).trans (((dat1 (T2 m) c).arrAt_in 0 rfl _).trans ((A_eq1 (T2 m) c 0).trans (T2_adj m c)))

/-- What the first pallas_call leaves in its other output: g2 of the arguments. -/
theorem T2_g2 : (T2 m c main_v13_0 : S10000x256.Idx → EReal)
    = fun idx => g2 (mat (m ((c : Thread nD τ).loc main_arg0))) (mat (m ((c : Thread nD τ).loc main_arg1))) (mat (m ((c : Thread nD τ).loc main_arg2))) (vec (m ((c : Thread nD τ).loc main_arg3)))
        (mat (m ((c : Thread nD τ).loc main_arg4))) (vec (m ((c : Thread nD τ).loc main_arg5))) (idx 0) (idx 1) := by
  refine (U2_arr m c 6).trans ((final0_6 (T1 m) c).trans ?_)
  dsimp only [T1]
  rw [V1_main_arg1, V1_main_v0, V1_main_v1, V1_main_v7, V1_main_v2, V1_main_v8]
  rfl

/-- What the second pallas_call leaves in its output: g3 of the arguments. -/
theorem T3_g3 : (T3 m c main_v14 : S10000x256.Idx → EReal)
    = fun idx => g3 (mat (m ((c : Thread nD τ).loc main_arg0))) (mat (m ((c : Thread nD τ).loc main_arg1))) (mat (m ((c : Thread nD τ).loc main_arg2))) (vec (m ((c : Thread nD τ).loc main_arg3)))
        (mat (m ((c : Thread nD τ).loc main_arg4))) (vec (m ((c : Thread nD τ).loc main_arg5))) (mat (m ((c : Thread nD τ).loc main_arg6))) (vec (m ((c : Thread nD τ).loc main_arg7))) (idx 0) (idx 1) := by
  refine (U3_arr m c 4).trans ((final1 (T2 m) c).trans ?_)
  rw [T2_adj, T2_g2, T2_of m c main_v3 (by decide), T2_of m c main_v9 (by decide), V1_main_v3, V1_main_v9]
  rfl

/-- The result buffer after the third pallas_call: the network's output of the fourteen arguments. -/
theorem out_eq : (U4 m c (Proc.devRef .tc main_v15) : S10000x16.Idx → EReal)
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (U4_arr m c 8).trans ((final2 (T3 m) c).trans ?_)
  rw [T3_adj, T3_g3, T3_of m c main_v4 (by decide) (by decide), T3_of m c main_v10 (by decide) (by decide),
    T3_of m c main_v5 (by decide) (by decide), T3_of m c main_v11 (by decide) (by decide),
    T3_of m c main_v6 (by decide) (by decide), T3_of m c main_v12 (by decide) (by decide),
    V1_main_v4, V1_main_v10, V1_main_v5, V1_main_v11, V1_main_v6, V1_main_v12]
  rfl

variable (ρ : Dev nD → PrngReg)

/-- THE KERNEL'S RUN WITH ITS VALUE: every weakly fair execution of the idealized kernel terminates, nothing faulting,
    with the result buffer at the specification's function of the arguments and the arguments unchanged. -/
theorem kernel_run : θ_run (Cert.KernelIdeal.defs (F := Ideal)) (onTc (τ := τ) (main (F := Ideal))) ⟨m, fun _ => 0, ρ⟩ (fun r => ∀ c : Dev nD,
      r.2.mem ((c.tc : Thread nD τ).loc main_v15) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run Cert.KernelIdeal.defs _ _).mono (fun r h c =>
    ⟨(h c _ (mem_uc main_v15 (by decide))).trans (out_eq m c),
     (h c _ (mem_uc main_arg0 (by decide))).trans (U4_main_arg0 m c),
     (h c _ (mem_uc main_arg1 (by decide))).trans (U4_main_arg1 m c),
     (h c _ (mem_uc main_arg2 (by decide))).trans (U4_main_arg2 m c),
     (h c _ (mem_uc main_arg3 (by decide))).trans (U4_main_arg3 m c),
     (h c _ (mem_uc main_arg4 (by decide))).trans (U4_main_arg4 m c),
     (h c _ (mem_uc main_arg5 (by decide))).trans (U4_main_arg5 m c),
     (h c _ (mem_uc main_arg6 (by decide))).trans (U4_main_arg6 m c),
     (h c _ (mem_uc main_arg7 (by decide))).trans (U4_main_arg7 m c),
     (h c _ (mem_uc main_arg8 (by decide))).trans (U4_main_arg8 m c),
     (h c _ (mem_uc main_arg9 (by decide))).trans (U4_main_arg9 m c),
     (h c _ (mem_uc main_arg10 (by decide))).trans (U4_main_arg10 m c),
     (h c _ (mem_uc main_arg11 (by decide))).trans (U4_main_arg11 m c),
     (h c _ (mem_uc main_arg12 (by decide))).trans (U4_main_arg12 m c),
     (h c _ (mem_uc main_arg13 (by decide))).trans (U4_main_arg13 m c)⟩) (run_all m ρ)

end Cert.Gcn.Bridge

end
-- ==== Proof.RefValue.lean ====
/-
  The reference program's result, entry by entry, is the network of the specification.

  Each stage of the reference is read at an index built from literal coordinates: a contraction is the finite sum over
  the contracted coordinate, a bias row is read at the column, the outlined relu is the maximum with the zero word's
  value 0. Stage by stage this gives the specification's layers g1, g2, g3 and the head.
-/
import proofs.«110443_g37520834297963_cont_8to1_b_1472_13_alg».proof.Proof.Spec
import proofs.«110443_g37520834297963_cont_8to1_b_1472_13_alg».proof.Proof.Gen.ReferenceIdeal.Read

noncomputable section

open scoped BigOperators

namespace Cert.Gcn.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

section Stages

variable (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal))
  (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x16, .f32⟩ : BufTy).Contents (Elt Ideal)) (x13 : (⟨S16, .f32⟩ : BufTy).Contents (Elt Ideal))

/-! ## The first layer -/

/-- The first product at (p, q): the sum over κ of X p κ · W1 κ q. -/
theorem v0_at (p : Fin 10000) (q : Fin 256) :
    val_main_v0 (F := Ideal) x0 x2 (ix2 p q) = mm (mat x0) (mat x2) p q := by
  rw [val_main_v0_apply]
  refine Finset.sum_congr rfl fun k _ => ?_
  have el : lidx_main_v0 (ix2 p q) k = ix2 p k := funext fun a => Fin.ext (by match a with | ⟨0, _⟩ => rfl | ⟨1, _⟩ => rfl)
  have er : ridx_main_v0 (ix2 p q) k = ix2 k q := funext fun a => Fin.ext (by match a with | ⟨0, _⟩ => rfl | ⟨1, _⟩ => rfl)
  rw [el, er]; rfl
/-- The first bias row, broadcast to every row, at (p, q) is b1 q. -/
theorem v2_at (p : Fin 10000) (q : Fin 256) :
    val_main_v2 (F := Ideal) x3 (ix2 p q) = vec x3 q := by
  rw [val_main_v2_apply, val_main_v1_apply]
  have e : idx_main_v1 (idx_main_v2 (ix2 p q)) = ix1 q :=
    funext fun a => Fin.ext (by match a with | ⟨0, _⟩ => rfl)
  rw [e]; rfl
/-- The first layer's linear part. -/
theorem v3_at (p : Fin 10000) (q : Fin 256) :
    val_main_v3 (F := Ideal) x0 x2 x3 (ix2 p q) = g1 (mat x0) (mat x2) (vec x3) p q := by
  rw [val_main_v3_apply, v0_at, v2_at]; rfl

/-! ## The first aggregation and the second layer -/

/-- The adjacency matrix times the first layer at (p, q). -/
theorem v4_at (p : Fin 10000) (q : Fin 256) :
    val_main_v4 (F := Ideal) x0 x1 x2 x3 (ix2 p q) = mm (mat x1) (g1 (mat x0) (mat x2) (vec x3)) p q := by
  rw [val_main_v4_apply]
  refine Finset.sum_congr rfl fun k _ => ?_
  have el : lidx_main_v4 (ix2 p q) k = ix2 p k := funext fun a => Fin.ext (by match a with | ⟨0, _⟩ => rfl | ⟨1, _⟩ => rfl)
  have er : ridx_main_v4 (ix2 p q) k = ix2 k q := funext fun a => Fin.ext (by match a with | ⟨0, _⟩ => rfl | ⟨1, _⟩ => rfl)
  rw [el, er, v3_at]; rfl
/-- The outlined relu's comparison array is 0 everywhere: the zero word denotes 0. -/
theorem call0_zero (i : S10000x256.Idx) : val_main_call0_v0 (F := Ideal) i = 0 := by
  rw [val_main_call0_v0_apply, val_main_call0_cst_apply]
  exact Ideal.ofBits_zero_f32
/-- The first aggregation: relu of the adjacency matrix times the first layer. -/
theorem v5_at (p : Fin 10000) (q : Fin 256) :
    val_main_v5 (F := Ideal) x0 x1 x2 x3 (ix2 p q) = agg (mat x1) (g1 (mat x0) (mat x2) (vec x3)) p q := by
  rw [val_main_v5_apply, v4_at, call0_zero]; rfl
/-- The first aggregation times W2. -/
theorem v6_at (p : Fin 10000) (q : Fin 256) :
    val_main_v6 (F := Ideal) x0 x1 x2 x3 x4 (ix2 p q) = mm (agg (mat x1) (g1 (mat x0) (mat x2) (vec x3))) (mat x4) p q := by
  rw [val_main_v6_apply]
  refine Finset.sum_congr rfl fun k _ => ?_
  have el : lidx_main_v6 (ix2 p q) k = ix2 p k := funext fun a => Fin.ext (by match a with | ⟨0, _⟩ => rfl | ⟨1, _⟩ => rfl)
  have er : ridx_main_v6 (ix2 p q) k = ix2 k q := funext fun a => Fin.ext (by match a with | ⟨0, _⟩ => rfl | ⟨1, _⟩ => rfl)
  rw [el, er, v5_at]; rfl
/-- The second bias row at (p, q) is b2 q. -/
theorem v8_at (p : Fin 10000) (q : Fin 256) :
    val_main_v8 (F := Ideal) x5 (ix2 p q) = vec x5 q := by
  rw [val_main_v8_apply, val_main_v7_apply]
  have e : idx_main_v7 (idx_main_v8 (ix2 p q)) = ix1 q :=
    funext fun a => Fin.ext (by match a with | ⟨0, _⟩ => rfl)
  rw [e]; rfl
/-- The second layer's linear part. -/
theorem v9_at (p : Fin 10000) (q : Fin 256) :
    val_main_v9 (F := Ideal) x0 x1 x2 x3 x4 x5 (ix2 p q) = g2 (mat x0) (mat x1) (mat x2) (vec x3) (mat x4) (vec x5) p q := by
  rw [val_main_v9_apply, v6_at, v8_at]; rfl

/-! ## The second aggregation and the third layer -/

/-- The adjacency matrix times the second layer. -/
theorem v10_at (p : Fin 10000) (q : Fin 256) :
    val_main_v10 (F := Ideal) x0 x1 x2 x3 x4 x5 (ix2 p q) = mm (mat x1) (g2 (mat x0) (mat x1) (mat x2) (vec x3) (mat x4) (vec x5)) p q := by
  rw [val_main_v10_apply]
  refine Finset.sum_congr rfl fun k _ => ?_
  have el : lidx_main_v10 (ix2 p q) k = ix2 p k := funext fun a => Fin.ext (by match a with | ⟨0, _⟩ => rfl | ⟨1, _⟩ => rfl)
  have er : ridx_main_v10 (ix2 p q) k = ix2 k q := funext fun a => Fin.ext (by match a with | ⟨0, _⟩ => rfl | ⟨1, _⟩ => rfl)
  rw [el, er, v9_at]; rfl
/-- The outlined relu's comparison array is 0 everywhere: the zero word denotes 0. -/
theorem call1_zero (i : S10000x256.Idx) : val_main_call1_v0 (F := Ideal) i = 0 := by
  rw [val_main_call1_v0_apply, val_main_call1_cst_apply]
  exact Ideal.ofBits_zero_f32
/-- The second aggregation. -/
theorem v11_at (p : Fin 10000) (q : Fin 256) :
    val_main_v11 (F := Ideal) x0 x1 x2 x3 x4 x5 (ix2 p q) = agg (mat x1) (g2 (mat x0) (mat x1) (mat x2) (vec x3) (mat x4) (vec x5)) p q := by
  rw [val_main_v11_apply, v10_at, call1_zero]; rfl
/-- The second aggregation times W3. -/
theorem v12_at (p : Fin 10000) (q : Fin 256) :
    val_main_v12 (F := Ideal) x0 x1 x2 x3 x4 x5 x6 (ix2 p q) = mm (agg (mat x1) (g2 (mat x0) (mat x1) (mat x2) (vec x3) (mat x4) (vec x5))) (mat x6) p q := by
  rw [val_main_v12_apply]
  refine Finset.sum_congr rfl fun k _ => ?_
  have el : lidx_main_v12 (ix2 p q) k = ix2 p k := funext fun a => Fin.ext (by match a with | ⟨0, _⟩ => rfl | ⟨1, _⟩ => rfl)
  have er : ridx_main_v12 (ix2 p q) k = ix2 k q := funext fun a => Fin.ext (by match a with | ⟨0, _⟩ => rfl | ⟨1, _⟩ => rfl)
  rw [el, er, v11_at]; rfl
/-- The third bias row at (p, q) is b3 q. -/
theorem v14_at (p : Fin 10000) (q : Fin 256) :
    val_main_v14 (F := Ideal) x7 (ix2 p q) = vec x7 q := by
  rw [val_main_v14_apply, val_main_v13_apply]
  have e : idx_main_v13 (idx_main_v14 (ix2 p q)) = ix1 q :=
    funext fun a => Fin.ext (by match a with | ⟨0, _⟩ => rfl)
  rw [e]; rfl
/-- The third layer's linear part. -/
theorem v15_at (p : Fin 10000) (q : Fin 256) :
    val_main_v15 (F := Ideal) x0 x1 x2 x3 x4 x5 x6 x7 (ix2 p q) = g3 (mat x0) (mat x1) (mat x2) (vec x3) (mat x4) (vec x5) (mat x6) (vec x7) p q := by
  rw [val_main_v15_apply, v12_at, v14_at]; rfl

/-! ## The third aggregation and the head -/

/-- The adjacency matrix times the third layer. -/
theorem v16_at (p : Fin 10000) (q : Fin 256) :
    val_main_v16 (F := Ideal) x0 x1 x2 x3 x4 x5 x6 x7 (ix2 p q) = mm (mat x1) (g3 (mat x0) (mat x1) (mat x2) (vec x3) (mat x4) (vec x5) (mat x6) (vec x7)) p q := by
  rw [val_main_v16_apply]
  refine Finset.sum_congr rfl fun k _ => ?_
  have el : lidx_main_v16 (ix2 p q) k = ix2 p k := funext fun a => Fin.ext (by match a with | ⟨0, _⟩ => rfl | ⟨1, _⟩ => rfl)
  have er : ridx_main_v16 (ix2 p q) k = ix2 k q := funext fun a => Fin.ext (by match a with | ⟨0, _⟩ => rfl | ⟨1, _⟩ => rfl)
  rw [el, er, v15_at]; rfl
/-- The outlined relu's comparison array is 0 everywhere: the zero word denotes 0. -/
theorem call2_zero (i : S10000x256.Idx) : val_main_call2_v0 (F := Ideal) i = 0 := by
  rw [val_main_call2_v0_apply, val_main_call2_cst_apply]
  exact Ideal.ofBits_zero_f32
/-- The third aggregation. -/
theorem v17_at (p : Fin 10000) (q : Fin 256) :
    val_main_v17 (F := Ideal) x0 x1 x2 x3 x4 x5 x6 x7 (ix2 p q) = agg (mat x1) (g3 (mat x0) (mat x1) (mat x2) (vec x3) (mat x4) (vec x5) (mat x6) (vec x7)) p q := by
  rw [val_main_v17_apply, v16_at, call2_zero]; rfl
/-- The third aggregation times the head's first weight matrix. -/
theorem v18_at (p : Fin 10000) (q : Fin 128) :
    val_main_v18 (F := Ideal) x0 x1 x2 x3 x4 x5 x6 x7 x8 (ix2 p q) = mm (agg (mat x1) (g3 (mat x0) (mat x1) (mat x2) (vec x3) (mat x4) (vec x5) (mat x6) (vec x7))) (mat x8) p q := by
  rw [val_main_v18_apply]
  refine Finset.sum_congr rfl fun k _ => ?_
  have el : lidx_main_v18 (ix2 p q) k = ix2 p k := funext fun a => Fin.ext (by match a with | ⟨0, _⟩ => rfl | ⟨1, _⟩ => rfl)
  have er : ridx_main_v18 (ix2 p q) k = ix2 k q := funext fun a => Fin.ext (by match a with | ⟨0, _⟩ => rfl | ⟨1, _⟩ => rfl)
  rw [el, er, v17_at]; rfl
/-- The head's first bias row at (p, q). -/
theorem v20_at (p : Fin 10000) (q : Fin 128) :
    val_main_v20 (F := Ideal) x9 (ix2 p q) = vec x9 q := by
  rw [val_main_v20_apply, val_main_v19_apply]
  have e : idx_main_v19 (idx_main_v20 (ix2 p q)) = ix1 q :=
    funext fun a => Fin.ext (by match a with | ⟨0, _⟩ => rfl)
  rw [e]; rfl
/-- The head's first linear layer. -/
theorem v21_at (p : Fin 10000) (q : Fin 128) :
    val_main_v21 (F := Ideal) x0 x1 x2 x3 x4 x5 x6 x7 x8 x9 (ix2 p q) = lin (agg (mat x1) (g3 (mat x0) (mat x1) (mat x2) (vec x3) (mat x4) (vec x5) (mat x6) (vec x7))) (mat x8) (vec x9) p q := by
  rw [val_main_v21_apply, v18_at, v20_at]; rfl
/-- The outlined relu's comparison array is 0 everywhere: the zero word denotes 0. -/
theorem call3_zero (i : S10000x128.Idx) : val_main_call3_v0 (F := Ideal) i = 0 := by
  rw [val_main_call3_v0_apply, val_main_call3_cst_apply]
  exact Ideal.ofBits_zero_f32
/-- The head's first hidden layer. -/
theorem v22_at (p : Fin 10000) (q : Fin 128) :
    val_main_v22 (F := Ideal) x0 x1 x2 x3 x4 x5 x6 x7 x8 x9 (ix2 p q) = relu (lin (agg (mat x1) (g3 (mat x0) (mat x1) (mat x2) (vec x3) (mat x4) (vec x5) (mat x6) (vec x7))) (mat x8) (vec x9)) p q := by
  rw [val_main_v22_apply, v21_at, call3_zero]; rfl
/-- The first hidden layer times the head's second weight matrix. -/
theorem v23_at (p : Fin 10000) (q : Fin 64) :
    val_main_v23 (F := Ideal) x0 x1 x2 x3 x4 x5 x6 x7 x8 x9 x10 (ix2 p q) = mm (relu (lin (agg (mat x1) (g3 (mat x0) (mat x1) (mat x2) (vec x3) (mat x4) (vec x5) (mat x6) (vec x7))) (mat x8) (vec x9))) (mat x10) p q := by
  rw [val_main_v23_apply]
  refine Finset.sum_congr rfl fun k _ => ?_
  have el : lidx_main_v23 (ix2 p q) k = ix2 p k := funext fun a => Fin.ext (by match a with | ⟨0, _⟩ => rfl | ⟨1, _⟩ => rfl)
  have er : ridx_main_v23 (ix2 p q) k = ix2 k q := funext fun a => Fin.ext (by match a with | ⟨0, _⟩ => rfl | ⟨1, _⟩ => rfl)
  rw [el, er, v22_at]; rfl
/-- The head's second bias row at (p, q). -/
theorem v25_at (p : Fin 10000) (q : Fin 64) :
    val_main_v25 (F := Ideal) x11 (ix2 p q) = vec x11 q := by
  rw [val_main_v25_apply, val_main_v24_apply]
  have e : idx_main_v24 (idx_main_v25 (ix2 p q)) = ix1 q :=
    funext fun a => Fin.ext (by match a with | ⟨0, _⟩ => rfl)
  rw [e]; rfl
/-- The head's second linear layer. -/
theorem v26_at (p : Fin 10000) (q : Fin 64) :
    val_main_v26 (F := Ideal) x0 x1 x2 x3 x4 x5 x6 x7 x8 x9 x10 x11 (ix2 p q) = lin (relu (lin (agg (mat x1) (g3 (mat x0) (mat x1) (mat x2) (vec x3) (mat x4) (vec x5) (mat x6) (vec x7))) (mat x8) (vec x9))) (mat x10) (vec x11) p q := by
  rw [val_main_v26_apply, v23_at, v25_at]; rfl
/-- The outlined relu's comparison array is 0 everywhere: the zero word denotes 0. -/
theorem call4_zero (i : S10000x64.Idx) : val_main_call4_v0 (F := Ideal) i = 0 := by
  rw [val_main_call4_v0_apply, val_main_call4_cst_apply]
  exact Ideal.ofBits_zero_f32
/-- The head's second hidden layer. -/
theorem v27_at (p : Fin 10000) (q : Fin 64) :
    val_main_v27 (F := Ideal) x0 x1 x2 x3 x4 x5 x6 x7 x8 x9 x10 x11 (ix2 p q) = relu (lin (relu (lin (agg (mat x1) (g3 (mat x0) (mat x1) (mat x2) (vec x3) (mat x4) (vec x5) (mat x6) (vec x7))) (mat x8) (vec x9))) (mat x10) (vec x11)) p q := by
  rw [val_main_v27_apply, v26_at, call4_zero]; rfl
/-- The second hidden layer times the head's output weight matrix. -/
theorem v28_at (p : Fin 10000) (q : Fin 16) :
    val_main_v28 (F := Ideal) x0 x1 x2 x3 x4 x5 x6 x7 x8 x9 x10 x11 x12 (ix2 p q) = mm (relu (lin (relu (lin (agg (mat x1) (g3 (mat x0) (mat x1) (mat x2) (vec x3) (mat x4) (vec x5) (mat x6) (vec x7))) (mat x8) (vec x9))) (mat x10) (vec x11))) (mat x12) p q := by
  rw [val_main_v28_apply]
  refine Finset.sum_congr rfl fun k _ => ?_
  have el : lidx_main_v28 (ix2 p q) k = ix2 p k := funext fun a => Fin.ext (by match a with | ⟨0, _⟩ => rfl | ⟨1, _⟩ => rfl)
  have er : ridx_main_v28 (ix2 p q) k = ix2 k q := funext fun a => Fin.ext (by match a with | ⟨0, _⟩ => rfl | ⟨1, _⟩ => rfl)
  rw [el, er, v27_at]; rfl
/-- The head's output bias row at (p, q). -/
theorem v30_at (p : Fin 10000) (q : Fin 16) :
    val_main_v30 (F := Ideal) x13 (ix2 p q) = vec x13 q := by
  rw [val_main_v30_apply, val_main_v29_apply]
  have e : idx_main_v29 (idx_main_v30 (ix2 p q)) = ix1 q :=
    funext fun a => Fin.ext (by match a with | ⟨0, _⟩ => rfl)
  rw [e]; rfl
/-- The reference's last stage at (p, q) is the whole network at (p, q). -/
theorem v31_at (p : Fin 10000) (q : Fin 16) :
    val_main_v31 (F := Ideal) x0 x1 x2 x3 x4 x5 x6 x7 x8 x9 x10 x11 x12 x13 (ix2 p q) = out (mat x0) (mat x1) (mat x2) (vec x3) (mat x4) (vec x5) (mat x6) (vec x7) (mat x8) (vec x9) (mat x10) (vec x11) (mat x12) (vec x13) p q := by
  rw [val_main_v31_apply, v28_at, v30_at]; rfl

/-- The reference's last stage is the network's result array of the fourteen argument arrays. -/
theorem ref_eq : val_main_v31 (F := Ideal) x0 x1 x2 x3 x4 x5 x6 x7 x8 x9 x10 x11 x12 x13 = outArr x0 x1 x2 x3 x4 x5 x6 x7 x8 x9 x10 x11 x12 x13 := by
  funext i
  obtain ⟨p, q, rfl⟩ : ∃ (p : Fin 10000) (q : Fin 16), i = ix2 p q := ⟨i 0, i 1, eq_ix2 i⟩
  exact v31_at x0 x1 x2 x3 x4 x5 x6 x7 x8 x9 x10 x11 x12 x13 p q

end Stages

/-! ## The reference's run -/

/-- On every device, from any memory with zero counters, every weakly fair execution of the reference terminates
    with its result array holding the network of the specification applied to the argument arrays as the run found
    them, and with the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v31)
          = outArr (m' ((c.tc : Thread nD τ).loc main_arg0))
            (m' ((c.tc : Thread nD τ).loc main_arg1))
            (m' ((c.tc : Thread nD τ).loc main_arg2))
            (m' ((c.tc : Thread nD τ).loc main_arg3))
            (m' ((c.tc : Thread nD τ).loc main_arg4))
            (m' ((c.tc : Thread nD τ).loc main_arg5))
            (m' ((c.tc : Thread nD τ).loc main_arg6))
            (m' ((c.tc : Thread nD τ).loc main_arg7))
            (m' ((c.tc : Thread nD τ).loc main_arg8))
            (m' ((c.tc : Thread nD τ).loc main_arg9))
            (m' ((c.tc : Thread nD τ).loc main_arg10))
            (m' ((c.tc : Thread nD τ).loc main_arg11))
            (m' ((c.tc : Thread nD τ).loc main_arg12))
            (m' ((c.tc : Thread nD τ).loc main_arg13))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13) :=
  (θ_run (defs (F := Ideal)) _ _).mono
    (fun _ h c => ⟨(h c).1.trans ((val_main_v31_eq (F := Ideal) _ _ _ _ _ _ _ _ _ _ _ _ _ _).trans
      (ref_eq _ _ _ _ _ _ _ _ _ _ _ _ _ _)), (h c).2⟩)
    (Cert.ReferenceIdeal.Value.run (F := Ideal) m' ρ')

end Cert.Gcn.Ref

end
-- ==== Proof.lean ====
/-
  A three-layer graph convolution with a three-layer perceptron head, as a kernel of three pallas_calls against plain
  jnp. Both compute, entry by entry on the extended reals,

    out = relu(relu(relu(A g3) Wp1 + bp1) Wp2 + bp2) Wp3 + bp3,   g3 = relu(A g2) W3 + b3,
    g2 = relu(A g1) W2 + b2,   g1 = X W1 + b1

  (Proof/Spec.lean). The kernel keeps g1 in a scratch filled at the first grid point of its first call, streams the
  adjacency matrix A once in row blocks, writes a copy of A in a narrower float format for the two later calls, and
  rounds every matrix operand to that format; on the extended reals a change of format is the identity, a matrix
  product into a zero accumulator is one finite sum over the contracted index, and relu is the maximum with 0 on both
  sides, so the two programs are the same formula operation by operation: no law of arithmetic is needed beyond
  reading each side at an entry, and the precondition is never opened.

  The frames. Each pallas_call is a pipeline over row blocks; its body loads whole staging buffers and stores whole
  buffers, so the body's triple is one symbolic run (Proof/Frame1*, Frame2*), in two cases for the first call, whose
  scratch is carried between grid points by the region's invariant (Proof/Frame0*). The three regions after the host
  conversions and reshapes make the program's run (Proof/Run*), from which every argument is read back unchanged
  (Proof/Args*) — written once for any float instance and stated for the word-level program and for the idealized
  one. The reference is straight-line host code: its run is the generated one.

  The values. Block t of each output array is what grid point t wrote (Proof/Final0–2 over the payloads read at an
  entry, Proof/PayAt, Proof/Pieces0), the host operations before the first call are conversions and reshapes of the
  arguments (Proof/HostPre), and substituting boundary by boundary gives the specification (Proof/Bridge); the
  reference's composed term is the same specification (Proof/RefValue).
-/
import proofs.«110443_g37520834297963_cont_8to1_b_1472_13_alg».proof.Defs
import proofs.«110443_g37520834297963_cont_8to1_b_1472_13_alg».proof.Proof.Gen.Kernel
import proofs.«110443_g37520834297963_cont_8to1_b_1472_13_alg».proof.Proof.Gen.KernelIdeal
import proofs.«110443_g37520834297963_cont_8to1_b_1472_13_alg».proof.Proof.Gen.ReferenceIdeal
import proofs.«110443_g37520834297963_cont_8to1_b_1472_13_alg».proof.Proof.Gen.Pre_finite_inputs
import proofs.«110443_g37520834297963_cont_8to1_b_1472_13_alg».proof.Proof.ArgsK
import proofs.«110443_g37520834297963_cont_8to1_b_1472_13_alg».proof.Proof.ArgsI
import proofs.«110443_g37520834297963_cont_8to1_b_1472_13_alg».proof.Proof.Bridge
import proofs.«110443_g37520834297963_cont_8to1_b_1472_13_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- And the reference: its run with the result dropped. -/
theorem frame_ri : Cert.frame_ReferenceIdeal := fun m ρ _ =>
  (θ_run Cert.ReferenceIdeal.defs _ _).mono (fun _ h c => (h c).2) (Cert.Gcn.Ref.ref_run m ρ)

/-- The idealization rewrote no operation. -/
theorem preserves : Cert.preserves_Kernel_KernelIdeal := trivial

/-- On the extended reals the kernel's result and the reference's are the specification's one function of arguments
    that agree. -/
theorem algebraic : Cert.algebraic_KernelIdeal_ReferenceIdeal := by
  intro m ρ m' ρ' _ hagree
  refine ⟨fun c => Cert.Gcn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.Gcn.Bridge.kernel_run m ρ, ?_⟩
  refine (θ_run Cert.ReferenceIdeal.defs _ _).mono (fun _ h c => ⟨(h c).1.trans ?_, (h c).2⟩) (Cert.Gcn.Ref.ref_run m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
